-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S32x2048x512 : Shape := ⟨3, ![32, 2048, 512]⟩
abbrev S32x2048x1 : Shape := ⟨3, ![32, 2048, 1]⟩
abbrev S1024x512 : Shape := ⟨2, ![1024, 512]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_
  bcast_S_S32x2048x1 : S_.BroadcastsInDim S32x2048x1 (![] : Fin 0 → Fin S32x2048x1.rank)
  reducesTo_S32x2048x1_S_d0_1_2 : S32x2048x1.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg2 : FVec F S32x2048x1 .f32) (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_cst_14 : FVec F S_ .f32 := constant S_ .f32 0x00000000#32
  let main_v39 : FVec F S32x2048x1 .f32 := broadcastInDim S32x2048x1 ![] bcast_S_S32x2048x1 main_cst_14
  let main_v40 : IVec S32x2048x1 1 := cmpf .oeq main_arg2 main_v39
  let main_cst_15 : FVec F S_ .f32 := constant S_ .f32 0x3F800000#32
  let main_v41 : FVec F S32x2048x1 .f32 := broadcastInDim S32x2048x1 ![] bcast_S_S32x2048x1 main_cst_15
  let main_v42 : IVec S32x2048x1 1 := cmpf .oeq main_arg2 main_v41
  let main_v43 : IVec S32x2048x1 1 := ori main_v40 main_v42
  let main_c_16 : IVec S_ 1 := constantI S_ 1 1#1
  let main_v44 : IVec S_ 1 := (fun x v => Host.reduce IntOp.andi x v reducesTo_S32x2048x1_S_d0_1_2 h_S_) main_v43 main_c_16
  let main_v45 : IVec S_ 1 := andi main_v38 main_v44
  main_v45

def fn_part1 {F : FTy → Type} [FloatOps F] (main_arg2 : FVec F S32x2048x1 .f32) (main_arg4 : FVec F S1024x512 .f32) (main_arg5 : FVec F S1024 .f32) (main_arg6 : FVec F S1x1024 .f32) (main_arg7 : FVec F S1 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg2 main_arg7 main_v33

def fn {F : FTy → Type} [FloatOps F] (main_arg0 : FVec F S32x512 .f32) (main_arg1 : FVec F S32x2048x512 .f32) (main_arg2 : FVec F S32x2048x1 .f32) (main_arg3 : FVec F S1024x512 .f32) (main_arg4 : FVec F S1024x512 .f32) (main_arg5 : FVec F S1024 .f32) (main_arg6 : FVec F S1x1024 .f32) (main_arg7 : FVec F S1 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S32x2048x1 .f32 := Host.absf main_arg2
  let main_cst_2 : FVec F S_ .f32 := constant S_ .f32 0x7F800000#32
  let main_v10 : FVec F S32x2048x1 .f32 := broadcastInDim S32x2048x1 ![] bcast_S_S32x2048x1 main_cst_2
  let main_v11 : IVec S32x2048x1 1 := cmpf .olt main_v9 main_v10
  let main_c_3 : IVec S_ 1 := constantI S_ 1 1#1
  let main_v12 : IVec S_ 1 := (fun x v => Host.reduce IntOp.andi x v reducesTo_S32x2048x1_S_d0_1_2 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg2 main_arg4 main_arg5 main_arg6 main_arg7 main_v13 main_v16
-- ==== Kernel.lean ====
abbrev S32x512 : Shape := ⟨2, ![32, 512]⟩
abbrev S32x2048x512 : Shape := ⟨3, ![32, 2048, 512]⟩
abbrev S32x2048x1 : Shape := ⟨3, ![32, 2048, 1]⟩
abbrev S1024x512 : Shape := ⟨2, ![1024, 512]⟩
abbrev S1024 : Shape := ⟨1, ![1024]⟩
abbrev S1x1024 : Shape := ⟨2, ![1, 1024]⟩
abbrev S1 : Shape := ⟨1, ![1]⟩
abbrev S512x1024 : Shape := ⟨2, ![512, 1024]⟩
abbrev S32x1024 : Shape := ⟨2, ![32, 1024]⟩
abbrev S32x1x1024 : Shape := ⟨3, ![32, 1, 1024]⟩
abbrev S1x1 : Shape := ⟨2, ![1, 1]⟩
abbrev S32x1x1 : Shape := ⟨3, ![32, 1, 1]⟩
abbrev S32x1x512 : Shape := ⟨3, ![32, 1, 512]⟩
abbrev S1x512x512 : Shape := ⟨3, ![1, 512, 512]⟩
abbrev S1x512x1 : Shape := ⟨3, ![1, 512, 1]⟩
abbrev S1x1x1024 : Shape := ⟨3, ![1, 1, 1024]⟩
abbrev S1x1x1 : Shape := ⟨3, ![1, 1, 1]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩
abbrev S_ : Shape := ⟨0, ![]⟩
abbrev S32x1 : Shape := ⟨2, ![32, 1]⟩

abbrev nBuf : Space → Nat
  | .hbm => 27
  | .vmem => 16
  | .smem => 0
  | _ => 0

abbrev bufTy : (tb : Table) → Fin (tcTables nBuf tb) → BufTy
  | .hbm, ⟨0, _⟩ => ⟨S32x512, .f32⟩
  | .hbm, ⟨1, _⟩ => ⟨S32x2048x512, .f32⟩
  | .hbm, ⟨2, _⟩ => ⟨S32x2048x1, .f32⟩
  | .hbm, ⟨3, _⟩ => ⟨S1024x512, .f32⟩
  | .hbm, ⟨4, _⟩ => ⟨S1024x512, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S512x1024, .f32⟩
  | .hbm, ⟨9, _⟩ => ⟨S32x1024, .f32⟩
  | .hbm, ⟨10, _⟩ => ⟨S32x1x1024, .f32⟩
  | .hbm, ⟨11, _⟩ => ⟨S1x1024, .f32⟩
  | .hbm, ⟨12, _⟩ => ⟨S1x1, .f32⟩
  | .hbm, ⟨13, _⟩ => ⟨S512x1024, .f32⟩
  | .hbm, ⟨14, _⟩ => ⟨S512x1024, .bf16⟩
  | .hbm, ⟨15, _⟩ => ⟨S32x2048x1, .f32⟩
  | .hbm, ⟨16, _⟩ => ⟨S32x1x1, .f32⟩
  | .hbm, ⟨17, _⟩ => ⟨S32x1x512, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S32x2048x1, .f32⟩
  | .hbm, ⟨22, _⟩ => ⟨S32x2048x1, .f32⟩
  | .hbm, ⟨23, _⟩ => ⟨S32x512, .f32⟩
  | .hbm, ⟨24, _⟩ => ⟨S32x1, .f32⟩
  | .hbm, ⟨25, _⟩ => ⟨S32x512, .f32⟩
  | .hbm, ⟨26, _⟩ => ⟨S32x512, .f32⟩
  | .local _ .vmem, ⟨0, _⟩ => ⟨S1x512x512, .f32⟩
  | .local _ .vmem, ⟨1, _⟩ => ⟨S1x512x512, .f32⟩
  | .local _ .vmem, ⟨2, _⟩ => ⟨S512x1024, .bf16⟩
  | .local _ .vmem, ⟨3, _⟩ => ⟨S1x512x1, .f32⟩
  | .local _ .vmem, ⟨4, _⟩ => ⟨S1x512x1, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x1, .f32⟩
  | .local _ .vmem, ⟨10, _⟩ => ⟨S1x512x1, .f32⟩
  | .local _ .vmem, ⟨11, _⟩ => ⟨S1x512x1, .f32⟩
  | .local _ .vmem, ⟨12, _⟩ => ⟨S1x1x1, .f32⟩
  | .local _ .vmem, ⟨13, _⟩ => ⟨S1x1x1, .f32⟩
  | .local _ .vmem, ⟨14, _⟩ => ⟨S1x1x512, .f32⟩
  | .local _ .vmem, ⟨15, _⟩ => ⟨S1x1x512, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S1024x512_S512x1024_1_0 : S1024x512.Transposes [1, 0] S512x1024
  shapeCasts_S32x1024_S32x1x1024 : S32x1024.ShapeCasts S32x1x1024
  shapeCasts_S1024_S1x1024 : S1024.ShapeCasts S1x1024
  shapeCasts_S1_S1x1 : S1.ShapeCasts S1x1
  bitsLt_bf16_f32 : FTy.bits .bf16 < FTy.bits .f32
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S512x1024_S512 : S512x1024.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x1_S1 : S512x1.Reduces [0] S1
  broadcasts_S512x1_S512x512 : S512x1.Broadcasts S512x512
  reduces_S512x512_S512 : S512x512.Reduces [0] S512
  shapeCasts_S512_S1x512 : S512.ShapeCasts S1x512
  bcast_S_S32x1x1 : S_.BroadcastsInDim S32x1x1 (![] : Fin 0 → Fin S32x1x1.rank)
  bcast_S32x1x1_S32x2048x1_0_1_2 : S32x1x1.BroadcastsInDim S32x2048x1 (![0, 1, 2] : Fin 3 → Fin S32x2048x1.rank)
  shapeCasts_S32x1x512_S32x512 : S32x1x512.ShapeCasts S32x512
  shapeCasts_S32x1x1_S32x1 : S32x1x1.ShapeCasts S32x1
  bcast_S32x1_S32x512_0_1 : S32x1.BroadcastsInDim S32x512 (![0, 1] : Fin 2 → Fin S32x512.rank)
  dot_S32x512_S512x1024_S32x1024_1_0_0_1_n_n_wf : DotDims.WF S32x512 S512x1024 S32x1024 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x2048x512.size a
  hwx0_0 : ∀ i : grid0.Coords, EltTy.bits .f32 = 32 ∨ (Rect.block (s := S32x2048x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x2048x1.size a
  hwx0_2 : ∀ i : grid0.Coords, EltTy.bits .f32 = 32 ∨ (Rect.block (s := S32x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .f32 = 32 ∨ (Rect.block (s := S32x1x1024) S1x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1.size a ≤ S32x2048x1.size a
  hwx0_7 : ∀ i : grid0.Coords, EltTy.bits .f32 = 32 ∨ (Rect.block (s := S32x2048x1) S1x512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S32x1x1.size a
  hwx0_8 : ∀ i : grid0.Coords, EltTy.bits .f32 = 32 ∨ (Rect.block (s := S32x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x512.size a ≤ S32x1x512.size a
  hwx0_9 : ∀ i : grid0.Coords, EltTy.bits .f32 = 32 ∨ (Rect.block (s := S32x1x512) S1x1x512.size (cc0_transform_9 i) (hinb0_9 i)).WholeWords (EltTy.packing .f32)

variable [Facts₀]

def dot_S32x512_S512x1024_S32x1024_1_0_0_1_n_n : DotDims S32x512 S512x1024 S32x1024 where
  lhsContracting := [1]
  rhsContracting := [0]
  lhsNonContracting := [0]
  rhsNonContracting := [1]
  lhsBatch := []
  rhsBatch := []
  wf := dot_S32x512_S512x1024_S32x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1x512x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S1x1x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x512 : Shape := ⟨2, ![32, 512]⟩
abbrev S32x2048x512 : Shape := ⟨3, ![32, 2048, 512]⟩
abbrev S32x2048x1 : Shape := ⟨3, ![32, 2048, 1]⟩
abbrev S1024x512 : Shape := ⟨2, ![1024, 512]⟩
abbrev S1024 : Shape := ⟨1, ![1024]⟩
abbrev S1x1024 : Shape := ⟨2, ![1, 1024]⟩
abbrev S1 : Shape := ⟨1, ![1]⟩
abbrev S512x1024 : Shape := ⟨2, ![512, 1024]⟩
abbrev S32x1024 : Shape := ⟨2, ![32, 1024]⟩
abbrev S32x2048x1024 : Shape := ⟨3, ![32, 2048, 1024]⟩
abbrev S1x1x1024 : Shape := ⟨3, ![1, 1, 1024]⟩
abbrev S32x1x1024 : Shape := ⟨3, ![32, 1, 1024]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩
abbrev S32x1x512 : Shape := ⟨3, ![32, 1, 512]⟩

abbrev nBuf : Space → Nat
  | .hbm => 34
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x2048x512, .f32⟩
  | .hbm, ⟨2, _⟩ => ⟨S32x2048x1, .f32⟩
  | .hbm, ⟨3, _⟩ => ⟨S1024x512, .f32⟩
  | .hbm, ⟨4, _⟩ => ⟨S1024x512, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S512x1024, .f32⟩
  | .hbm, ⟨9, _⟩ => ⟨S32x1024, .f32⟩
  | .hbm, ⟨10, _⟩ => ⟨S32x2048x1024, .f32⟩
  | .hbm, ⟨11, _⟩ => ⟨S1x1x1024, .f32⟩
  | .hbm, ⟨12, _⟩ => ⟨S32x2048x1024, .f32⟩
  | .hbm, ⟨13, _⟩ => ⟨S32x2048x1024, .f32⟩
  | .hbm, ⟨14, _⟩ => ⟨S32x1x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x1, .f32⟩
  | .hbm, ⟨19, _⟩ => ⟨S1x1x1, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x1, .f32⟩
  | .hbm, ⟨26, _⟩ => ⟨S32x1x1, .f32⟩
  | .hbm, ⟨27, _⟩ => ⟨S_, .f32⟩
  | .hbm, ⟨28, _⟩ => ⟨S32x1x1, .f32⟩
  | .hbm, ⟨29, _⟩ => ⟨S32x1x1, .f32⟩
  | .hbm, ⟨30, _⟩ => ⟨S32x2048x1, .f32⟩
  | .hbm, ⟨31, _⟩ => ⟨S32x2048x1, .f32⟩
  | .hbm, ⟨32, _⟩ => ⟨S32x1x512, .f32⟩
  | .hbm, ⟨33, _⟩ => ⟨S32x512, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S32x1_S32x1x1_0_2 : S32x1.BroadcastsInDim S32x1x1 (![0, 2] : Fin 2 → Fin S32x1x1.rank)
  bcast_S_S32x1x1 : S_.BroadcastsInDim S32x1x1 (![] : Fin 0 → Fin S32x1x1.rank)
  bcast_S32x1x1_S32x2048x1_0_1_2 : S32x1x1.BroadcastsInDim S32x2048x1 (![0, 1, 2] : Fin 3 → Fin S32x2048x1.rank)
  shapeCasts_S32x1x512_S32x512 : S32x1x512.ShapeCasts S32x512
  dot_S32x512_S512x1024_S32x1024_1_0_0_1_n_n_wf : DotDims.WF S32x512 S512x1024 S32x1024 [1] [0] [0] [1] [] []
  dot_S32x2048x512_S1024x512_S32x2048x1024_2_1_01_0_n_n_wf : DotDims.WF S32x2048x512 S1024x512 S32x2048x1024 [2] [1] [0, 1] [0] [] []
  dot_S32x2048x1024_S1x1024_S32x2048x1_2_1_01_0_n_n_wf : DotDims.WF S32x2048x1024 S1x1024 S32x2048x1 [2] [1] [0, 1] [0] [] []
  dot_S32x2048x1_S32x2048x512_S32x1x512_1_1_2_2_0_0_wf : DotDims.WF S32x2048x1 S32x2048x512 S32x1x512 [1] [1] [2] [2] [0] [0]

variable [Facts₀]

def dot_S32x512_S512x1024_S32x1024_1_0_0_1_n_n : DotDims S32x512 S512x1024 S32x1024 where
  lhsContracting := [1]
  rhsContracting := [0]
  lhsNonContracting := [0]
  rhsNonContracting := [1]
  lhsBatch := []
  rhsBatch := []
  wf := dot_S32x512_S512x1024_S32x1024_1_0_0_1_n_n_wf
def dot_S32x2048x512_S1024x512_S32x2048x1024_2_1_01_0_n_n : DotDims S32x2048x512 S1024x512 S32x2048x1024 where
  lhsContracting := [2]
  rhsContracting := [1]
  lhsNonContracting := [0, 1]
  rhsNonContracting := [0]
  lhsBatch := []
  rhsBatch := []
  wf := dot_S32x2048x512_S1024x512_S32x2048x1024_2_1_01_0_n_n_wf
def dot_S32x2048x1024_S1x1024_S32x2048x1_2_1_01_0_n_n : DotDims S32x2048x1024 S1x1024 S32x2048x1 where
  lhsContracting := [2]
  rhsContracting := [1]
  lhsNonContracting := [0, 1]
  rhsNonContracting := [0]
  lhsBatch := []
  rhsBatch := []
  wf := dot_S32x2048x1024_S1x1024_S32x2048x1_2_1_01_0_n_n_wf
def dot_S32x2048x1_S32x2048x512_S32x1x512_1_1_2_2_0_0 : DotDims S32x2048x1 S32x2048x512 S32x1x512 where
  lhsContracting := [1]
  rhsContracting := [1]
  lhsNonContracting := [2]
  rhsNonContracting := [2]
  lhsBatch := [0]
  rhsBatch := [0]
  wf := dot_S32x2048x1_S32x2048x512_S32x1x512_1_1_2_2_0_0_wf

class Facts : Prop extends Facts₀ where

variable [Facts]
-- ==== Proof.ScaleSum.lean ====
/-
  A nonnegative real factor distributes over a finite sum of extended reals.

  On the extended reals multiplication does not distribute over addition in general
  (`(⊤ + ⊥) * r` against `⊤ * r + ⊥ * r` is fine, but `(a + b) * ⊤` is not), but it does
  when the common factor is a nonnegative real.  This is the one law the attention
  kernel needs: it normalises the weighted sum of the context rows AFTER summing,
  the reference normalises every weight BEFORE summing.
-/
import Mathlib.Data.EReal.Operations
import Mathlib.Data.EReal.Inv
import Mathlib.Algebra.BigOperators.Group.Finset.Basic

namespace Cert.Attention

open scoped BigOperators

/-- `(∑ f) * r = ∑ (f * r)` for `0 ≤ r < ⊤`. -/
theorem sum_mul_of_nonneg {ι : Type*} (s : Finset ι) (f : ι → EReal) {r : EReal}
    (h0 : 0 ≤ r) (ht : r ≠ ⊤) : (∑ i ∈ s, f i) * r = ∑ i ∈ s, f i * r := by
  classical
  induction s using Finset.induction_on with
  | empty => simp
  | insert a s ha ih =>
    rw [Finset.sum_insert ha, Finset.sum_insert ha,
      EReal.right_distrib_of_nonneg_of_ne_top h0 ht, ih]

/-- Scaling every weight by `r` before the weighted sum is scaling the weighted sum by `r`. -/
theorem sum_scaled_weights {ι : Type*} (s : Finset ι) (w x : ι → EReal) {r : EReal}
    (h0 : 0 ≤ r) (ht : r ≠ ⊤) :
    ∑ i ∈ s, (w i * r) * x i = (∑ i ∈ s, w i * x i) * r := by
  rw [sum_mul_of_nonneg s _ h0 ht]
  exact Finset.sum_congr rfl fun i _ => mul_right_comm (w i) r (x i)

end Cert.Attention
-- ==== Proof.Spec.lean ====
/-
  Additive attention with an unnormalised masked softmax, as functions of the argument arrays over the
  extended reals.

  For a batch row `b`, a position `l` and a hidden unit `h`:
    hidden b l h = tanh ((q Wqᵀ)(b,h) + ((x Wcᵀ)(b,l,h) + bc h)),
    logit b l    = Σ_h hidden b l h · Wo(0,h) + bo,
    w b l        = mask(b,l) · exp (logit b l)                      (the unnormalised weight),
    d b          = Σ_l w b l + ε                                    (ε the f32 word of 1e-5),
    weights b l  = w b l / d b,
    pooled b c   = (Σ_l w b l · x(b,l,c)) / d b.
  The other program normalises the weights before it pools: Σ_l (w b l / d b) · x(b,l,c).  The two agree
  whenever `d b` is a positive real, because a division by a positive real is the product with a nonnegative
  real, which distributes over a sum of extended reals (`sum_scaled_weights`).  When `d b = 0` they differ
  (`⊤ + ⊥` against a quotient by zero), which is why the mask is taken in {0, 1}: then every weight is a
  nonnegative real and `d b ≥ ε > 0`.
-/
import Idealize.ShloMosaic.PureOps.Ideal
import Idealize.ShloMosaic.PureOps.Ideal.Laws
import Idealize.ShloMosaic.Lib.ValueIdx
import proofs.«169427_j37151467110735_1_alg».proof.Proof.ScaleSum

noncomputable section

namespace Cert.Attention

open Idealize.ShloMosaic Idealize.ShloMosaic.ValueIdx
open scoped BigOperators

/-! ## The functions -/

section Defs

variable (q : FVec Ideal ⟨2, ![32, 512]⟩ .f32) (x : FVec Ideal ⟨3, ![32, 2048, 512]⟩ .f32)
  (mk : FVec Ideal ⟨3, ![32, 2048, 1]⟩ .f32) (Wq Wc : FVec Ideal ⟨2, ![1024, 512]⟩ .f32)
  (bc : FVec Ideal ⟨1, ![1024]⟩ .f32) (Wo : FVec Ideal ⟨2, ![1, 1024]⟩ .f32) (bo : FVec Ideal ⟨1, ![1]⟩ .f32)

/-- The query's projection `(q Wqᵀ)(b, h)`. -/
def queryProj (b : Fin 32) (h : Fin 1024) : EReal := ∑ k : Fin 512, q (ix2 b k) * Wq (ix2 h k)

/-- The context's projection `(x Wcᵀ)(b, l, h)`. -/
def contextProj (b : Fin 32) (l : Fin 2048) (h : Fin 1024) : EReal := ∑ k : Fin 512, x (ix3 b l k) * Wc (ix2 h k)

/-- The hidden activation. -/
def hidden (b : Fin 32) (l : Fin 2048) (h : Fin 1024) : EReal :=
  Ideal.tanh (queryProj q Wq b h + (contextProj x Wc b l h + bc (ix1 h)))

/-- The attention logit. -/
def logit (b : Fin 32) (l : Fin 2048) : EReal :=
  (∑ h : Fin 1024, hidden q x Wq Wc bc b l h * Wo (ix2 0 h)) + bo (ix1 0)

/-- The unnormalised weight: the mask times the exponential of the logit. -/
def unnorm (b : Fin 32) (l : Fin 2048) : EReal :=
  mk (ix3 b l 0) * Ideal.exp (logit q x Wq Wc bc Wo bo b l)

end Defs

/-- The f32 word of `1e-5` both programs add to the sum of the weights. -/
abbrev eps : EReal := Ideal.ofBits .f32 0x3727C5AC#32

section Norm

variable (w : Fin 32 → Fin 2048 → EReal) (x : FVec Ideal ⟨3, ![32, 2048, 512]⟩ .f32)

/-- The normaliser: the sum of a row's weights, plus `ε`. -/
def denom (b : Fin 32) : EReal := (∑ l : Fin 2048, w b l) + eps

/-- The normalised weights. -/
def weights (b : Fin 32) (l : Fin 2048) : EReal := Ideal.div (w b l) (denom w b)

/-- The pooled context, normalised after pooling. -/
def pooled (b : Fin 32) (c : Fin 512) : EReal := Ideal.div (∑ l : Fin 2048, w b l * x (ix3 b l c)) (denom w b)

/-- The pooled context, every weight normalised before pooling. -/
def pooledNormFirst (b : Fin 32) (c : Fin 512) : EReal := ∑ l : Fin 2048, weights w b l * x (ix3 b l c)

/-- With a positive real normaliser the two poolings agree: dividing by `d` is multiplying by the
    nonnegative real `1/d`, and that factor moves across the sum. -/
theorem pooledNormFirst_eq (b : Fin 32) (c : Fin 512) {d : ℝ} (hd : 0 < d) (h : denom w b = (d : EReal)) :
    pooledNormFirst w x b c = pooled w x b c := by
  unfold pooledNormFirst pooled weights
  rw [h, Ideal.div_coe hd.ne']
  have h0 : (0 : EReal) ≤ ((1 / d : ℝ) : EReal) := by exact_mod_cast (one_div_pos.mpr hd).le
  rw [← sum_scaled_weights Finset.univ (fun l => w b l) (fun l => x (ix3 b l c)) h0 (EReal.coe_ne_top _)]
  exact Finset.sum_congr rfl fun l _ => by rw [Ideal.div_coe hd.ne']

end Norm

/-! ## When the normaliser is a positive real -/

/-- `tanh` of any extended real is a real. -/
theorem tanh_real (z : EReal) : ∃ r : ℝ, Ideal.tanh z = (r : EReal) := by
  induction z using EReal.rec with
  | bot => exact ⟨-1, by simp⟩
  | coe r => exact ⟨Real.tanh r, rfl⟩
  | top => exact ⟨1, by simp⟩

/-- A finite sum of reals is a real. -/
theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨r', hr'⟩ := ih fun i hi => h i (Finset.mem_insert_of_mem hi)
    exact ⟨r + r', by rw [Finset.sum_insert ha, hr, hr', EReal.coe_add]⟩

/-- A finite sum of nonnegative reals is a nonnegative real. -/
theorem sum_nonneg_real {ι : Type*} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨r, h0, hr⟩ := h a (Finset.mem_insert_self a s)
    obtain ⟨r', h0', hr'⟩ := ih fun i hi => h i (Finset.mem_insert_of_mem hi)
    exact ⟨r + r', add_nonneg h0 h0', by rw [Finset.sum_insert ha, hr, hr', EReal.coe_add]⟩

/-- `ε` is a positive real: `10995116 · 2⁻⁴⁰`. -/
theorem eps_pos : ∃ r : ℝ, 0 < r ∧ eps = (r : EReal) := by
  refine ⟨10995116 * (2:ℝ)^(-40 : ℤ), by positivity, ?_⟩
  simp [eps, Ideal.ofBits, Ideal.ieee, -EReal.coe_mul]

section Positive

variable (q : FVec Ideal ⟨2, ![32, 512]⟩ .f32) (x : FVec Ideal ⟨3, ![32, 2048, 512]⟩ .f32)
  (mk : FVec Ideal ⟨3, ![32, 2048, 1]⟩ .f32) (Wq Wc : FVec Ideal ⟨2, ![1024, 512]⟩ .f32)
  (bc : FVec Ideal ⟨1, ![1024]⟩ .f32) (Wo : FVec Ideal ⟨2, ![1, 1024]⟩ .f32) (bo : FVec Ideal ⟨1, ![1]⟩ .f32)

/-- With real output weights and bias the logit is a real: the hidden activations are reals whatever their
    arguments. -/
theorem logit_real (hWo : ∀ h : Fin 1024, ∃ r : ℝ, Wo (ix2 0 h) = (r : EReal)) (hbo : ∃ r : ℝ, bo (ix1 0) = (r : EReal))
    (b : Fin 32) (l : Fin 2048) : ∃ r : ℝ, logit q x Wq Wc bc Wo bo b l = (r : EReal) := by
  unfold logit
  obtain ⟨s, hs⟩ := sum_real Finset.univ (fun h : Fin 1024 => hidden q x Wq Wc bc b l h * Wo (ix2 0 h)) (fun h _ => by
    obtain ⟨t, ht⟩ := tanh_real (queryProj q Wq b h + (contextProj x Wc b l h + bc (ix1 h)))
    obtain ⟨o, ho⟩ := hWo h
    exact ⟨t * o, by show hidden q x Wq Wc bc b l h * Wo (ix2 0 h) = _; unfold hidden; rw [ht, ho, EReal.coe_mul]⟩)
  obtain ⟨o, ho⟩ := hbo
  exact ⟨s + o, by rw [hs, ho, EReal.coe_add]⟩

/-- With a 0/1 mask and a real logit every unnormalised weight is a nonnegative real. -/
theorem unnorm_nonneg_real (hWo : ∀ h : Fin 1024, ∃ r : ℝ, Wo (ix2 0 h) = (r : EReal)) (hbo : ∃ r : ℝ, bo (ix1 0) = (r : EReal))
    (hmk : ∀ (b : Fin 32) (l : Fin 2048), mk (ix3 b l 0) = 0 ∨ mk (ix3 b l 0) = 1)
    (b : Fin 32) (l : Fin 2048) : ∃ r : ℝ, 0 ≤ r ∧ unnorm q x mk Wq Wc bc Wo bo b l = (r : EReal) := by
  unfold unnorm
  obtain ⟨g, hg⟩ := logit_real q x Wq Wc bc Wo bo hWo hbo b l
  rw [hg, Ideal.exp_coe]
  rcases hmk b l with h | h
  · exact ⟨0, le_rfl, by rw [h, zero_mul, EReal.coe_zero]⟩
  · exact ⟨Real.exp g, (Real.exp_pos g).le, by rw [h, one_mul]⟩

/-- So the normaliser is a positive real. -/
theorem denom_pos (hWo : ∀ h : Fin 1024, ∃ r : ℝ, Wo (ix2 0 h) = (r : EReal)) (hbo : ∃ r : ℝ, bo (ix1 0) = (r : EReal))
    (hmk : ∀ (b : Fin 32) (l : Fin 2048), mk (ix3 b l 0) = 0 ∨ mk (ix3 b l 0) = 1) (b : Fin 32) :
    ∃ d : ℝ, 0 < d ∧ denom (unnorm q x mk Wq Wc bc Wo bo) b = (d : EReal) := by
  unfold denom
  obtain ⟨s, hs0, hs⟩ := sum_nonneg_real Finset.univ (fun l : Fin 2048 => unnorm q x mk Wq Wc bc Wo bo b l)
    (fun l _ => unnorm_nonneg_real q x mk Wq Wc bc Wo bo hWo hbo hmk b l)
  obtain ⟨e, he0, he⟩ := eps_pos
  exact ⟨s + e, by positivity, by rw [hs, he, EReal.coe_add]⟩

end Positive

end Cert.Attention

end
-- ==== Proof.RefValue.lean ====
/-
  The reference computes the attention functions of Spec.lean.

  Its program is read one operation at a time (the generated read-at-an-index lemmas); each stage is
  identified, at explicit coordinates, with the corresponding function of the specification:
  the two projections are sums over the 512 input features, the logit a sum over the 1024 hidden units,
  the normaliser a sum over the 2048 positions started from zero, and the pooled output a sum over the
  positions of the NORMALISED weight times the context entry.
-/
import proofs.«169427_j37151467110735_1_alg».proof.Proof.Gen.ReferenceIdeal.Read
import proofs.«169427_j37151467110735_1_alg».proof.Proof.Spec

noncomputable section

namespace Cert.ReferenceIdeal.RefValue

open Cert.ReferenceIdeal Cert.ReferenceIdeal.Read Cert.Attention
open Idealize.ShloMosaic Idealize.ShloMosaic.ValueIdx
open scoped BigOperators

variable (x0 : (⟨S32x512, .f32⟩ : BufTy).Contents (Elt Ideal)) (x1 : (⟨S32x2048x512, .f32⟩ : BufTy).Contents (Elt Ideal))
  (x2 : (⟨S32x2048x1, .f32⟩ : BufTy).Contents (Elt Ideal)) (x3 x4 : (⟨S1024x512, .f32⟩ : BufTy).Contents (Elt Ideal))
  (x5 : (⟨S1024, .f32⟩ : BufTy).Contents (Elt Ideal)) (x6 : (⟨S1x1024, .f32⟩ : BufTy).Contents (Elt Ideal))
  (x7 : (⟨S1, .f32⟩ : BufTy).Contents (Elt Ideal))

/-- The query's projection: `q Wqᵀ` through the transposed weight. -/
theorem queryProj_eq (b : Fin 32) (h : Fin 1024) :
    val_main_v1 (F := Ideal) x0 x3 (ix2 b h) = queryProj x0 x3 b h := by
  rw [val_main_v1_apply]
  unfold queryProj
  refine Finset.sum_congr rfl fun k _ => ?_
  rw [val_main_v0_apply]
  have e1 : lidx_main_v1 (ix2 b h) k = ix2 b k := funext fun a => Fin.ext (by match a with | ⟨0, _⟩ => rfl | ⟨1, _⟩ => rfl)
  have e2 : idx_main_v0 (ridx_main_v1 (ix2 b h) k) = ix2 h k := funext fun a => Fin.ext (by match a with | ⟨0, _⟩ => rfl | ⟨1, _⟩ => rfl)
  rw [e1, e2]

/-- The context's projection: the einsum `blc,hc->blh`. -/
theorem contextProj_eq (b : Fin 32) (l : Fin 2048) (h : Fin 1024) :
    val_main_v2 (F := Ideal) x1 x4 (ix3 b l h) = contextProj x1 x4 b l h := by
  rw [val_main_v2_apply]
  unfold contextProj
  refine Finset.sum_congr rfl fun k _ => ?_
  have e1 : lidx_main_v2 (ix3 b l h) k = ix3 b l k := funext fun a => Fin.ext (by match a with | ⟨0, _⟩ => rfl | ⟨1, _⟩ => rfl | ⟨2, _⟩ => rfl)
  have e2 : ridx_main_v2 (ix3 b l h) k = ix2 h k := funext fun a => Fin.ext (by match a with | ⟨0, _⟩ => rfl | ⟨1, _⟩ => rfl)
  rw [e1, e2]

/-- The hidden activation. -/
theorem hidden_eq (b : Fin 32) (l : Fin 2048) (h : Fin 1024) :
    val_main_v9 (F := Ideal) x0 x1 x3 x4 x5 (ix3 b l h) = hidden x0 x1 x3 x4 x5 b l h := by
  rw [val_main_v9_apply, val_main_v8_apply, val_main_v7_apply, val_main_v6_apply, val_main_v5_apply, val_main_v4_apply,
    val_main_v3_apply]
  have e1 : idx_main_v6 (idx_main_v7 (ix3 b l h)) = ix2 b h := funext fun a => Fin.ext (by match a with | ⟨0, _⟩ => rfl | ⟨1, _⟩ => rfl)
  have e2 : idx_main_v3 (idx_main_v4 (ix3 b l h)) = ix1 h := funext fun a => Fin.ext (by match a with | ⟨0, _⟩ => rfl)
  rw [e1, e2, queryProj_eq, contextProj_eq]
  rfl

/-- The logit. -/
theorem logit_eq (b : Fin 32) (l : Fin 2048) :
    val_main_v13 (F := Ideal) x0 x1 x3 x4 x5 x6 x7 (ix3 b l 0) = logit x0 x1 x3 x4 x5 x6 x7 b l := by
  rw [val_main_v13_apply, val_main_v12_apply, val_main_v11_apply, val_main_v10_apply]
  unfold logit
  have e0 : idx_main_v11 (idx_main_v12 (ix3 b l (0 : Fin 1))) = ix1 (0 : Fin 1) := funext fun a => Fin.ext (by match a with | ⟨0, _⟩ => rfl)
  rw [e0]
  refine congrArg (· + x7 (ix1 (0 : Fin 1))) (Finset.sum_congr rfl fun k _ => ?_)
  have e1 : lidx_main_v10 (ix3 b l (0 : Fin 1)) k = ix3 b l k := funext fun a => Fin.ext (by match a with | ⟨0, _⟩ => rfl | ⟨1, _⟩ => rfl | ⟨2, _⟩ => rfl)
  have e2 : ridx_main_v10 (ix3 b l (0 : Fin 1)) k = ix2 (0 : Fin 1) k := funext fun a => Fin.ext (by match a with | ⟨0, _⟩ => rfl | ⟨1, _⟩ => rfl)
  rw [e1, e2, hidden_eq]

/-- The unnormalised weight. -/
theorem unnorm_eq (b : Fin 32) (l : Fin 2048) :
    val_main_v15 (F := Ideal) x0 x1 x2 x3 x4 x5 x6 x7 (ix3 b l 0) = unnorm x0 x1 x2 x3 x4 x5 x6 x7 b l := by
  rw [val_main_v15_apply, val_main_v14_apply, logit_eq]
  rfl

/-- The normaliser: the sum over the positions from the zero word, plus `ε`. -/
theorem denom_eq (b : Fin 32) :
    val_main_v19 (F := Ideal) x0 x1 x2 x3 x4 x5 x6 x7 (ix3 b 0 0) = denom (unnorm x0 x1 x2 x3 x4 x5 x6 x7) b := by
  rw [val_main_v19_apply, val_main_v18_apply, val_main_v17_apply, val_main_v16_apply, val_main_cst_0_apply, val_main_cst_apply]
  unfold denom
  refine congrArg (· + eps) ?_
  show Ideal.ofBits .f32 0x00000000#32 + _ = _
  rw [Ideal.ofBits_zero_f32, zero_add]
  refine Finset.sum_congr rfl fun k _ => ?_
  have e1 : idx_main_v16 (idx_main_v17 (ix3 b (0 : Fin 1) (0 : Fin 1))) k = ix3 b k (0 : Fin 1) := funext fun a => Fin.ext (by match a with | ⟨0, _⟩ => rfl | ⟨1, _⟩ => rfl | ⟨2, _⟩ => rfl)
  rw [e1, unnorm_eq]

/-- The normalised weights: the first result. -/
theorem weights_eq (b : Fin 32) (l : Fin 2048) :
    val_main_v21 (F := Ideal) x0 x1 x2 x3 x4 x5 x6 x7 (ix3 b l 0) = weights (unnorm x0 x1 x2 x3 x4 x5 x6 x7) b l := by
  rw [val_main_v21_apply, val_main_v20_apply, unnorm_eq]
  have e1 : idx_main_v20 (ix3 b l (0 : Fin 1)) = ix3 b (0 : Fin 1) (0 : Fin 1) := funext fun a => Fin.ext (by match a with | ⟨0, _⟩ => rfl | ⟨1, _⟩ => rfl | ⟨2, _⟩ => rfl)
  rw [e1, denom_eq]
  rfl

/-- The pooled context, each weight normalised first: the second result. -/
theorem pooled_eq (b : Fin 32) (c : Fin 512) :
    val_main_v23 (F := Ideal) x0 x1 x2 x3 x4 x5 x6 x7 (ix2 b c)
      = pooledNormFirst (unnorm x0 x1 x2 x3 x4 x5 x6 x7) x1 b c := by
  rw [val_main_v23_apply]
  have e0 : idx_main_v23 (ix2 b c) = ix3 b (0 : Fin 1) c := funext fun a => Fin.ext (by
    have hb : b.val < 32 := b.isLt
    have hc : c.val < 512 := c.isLt
    match a with
    | ⟨0, _⟩ => show (b.val * 512 + c.val) / 512 = b.val; omega
    | ⟨1, _⟩ => rfl
    | ⟨2, _⟩ => show (b.val * 512 + c.val) % 512 = c.val; omega)
  rw [e0, val_main_v22_apply]
  unfold pooledNormFirst
  refine Finset.sum_congr rfl fun k _ => ?_
  have e1 : lidx_main_v22 (ix3 b (0 : Fin 1) c) k = ix3 b k (0 : Fin 1) := funext fun a => Fin.ext (by match a with | ⟨0, _⟩ => rfl | ⟨1, _⟩ => rfl | ⟨2, _⟩ => rfl)
  have e2 : ridx_main_v22 (ix3 b (0 : Fin 1) c) k = ix3 b k c := funext fun a => Fin.ext (by match a with | ⟨0, _⟩ => rfl | ⟨1, _⟩ => rfl | ⟨2, _⟩ => rfl)
  rw [e1, e2, weights_eq]

end Cert.ReferenceIdeal.RefValue

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The body's arithmetic, read at an index over the extended reals.

  The tile's unnormalised weights: for a position `r` of the tile, the mask entry times the exponential of
  the logit, the logit a sum over the 1024 hidden units of `tanh (query row + (context row · weight column +
  bias))` times the output weight, plus the output bias; the matrix product is a sum over the 512 features.
  The three stored values: the weights themselves, the running sum plus the sum of the tile's weights, and
  the running weighted sum plus, per feature `c`, the sum over the tile of weight times context entry.
-/
import proofs.«169427_j37151467110735_1_alg».proof.Proof.Gen.KernelIdeal.Skeleton
import proofs.«169427_j37151467110735_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.LibKeepdims
open Idealize.ShloMosaic Idealize.ShloMosaic.ValueIdx
open scoped BigOperators

/-- The unnormalised weights of a tile, as the body computes them from its input blocks: the context tile `x0`,
    the transposed context weight `x1`, the mask tile `x2`, the query projection's row `x3`, the bias `x4`,
    the output weight `x5` and the output bias `x6`. -/
abbrev tileWeights {F : FTy → Type} [FloatOps F] (x0 : Vec F S1x512x512 .f32) (x1 : Vec F S512x1024 .bf16) (x2 : Vec F S1x512x1 .f32)
    (x3 : Vec F S1x1x1024 .f32) (x4 : Vec F S1x1024 .f32) (x5 : Vec F S1x1024 .f32) (x6 : Vec F S1x1 .f32) : FVec F S512x1 .f32 :=
  k0_pay7 x0 x1 x4 x3 x5 x6 x2

/-! ## The two transcendental operations at an index -/

theorem tanh_apply {s : Shape} (v : FVec Ideal s .f32) (i : s.Idx) : tanh v i = Ideal.tanh (v i) := rfl

theorem exp_apply {s : Shape} (v : FVec Ideal s .f32) (i : s.Idx) : exp v i = Ideal.exp (v i) := rfl

/-! ## Sums along one axis of a matrix -/

/-- The sum along the lanes of row `r`. -/
theorem laneSum_apply (v : FVec Ideal S512x1024 .f32) (r : Fin 512) :
    multiReduction .add [1] S512 v 0x00000000#32 reduces_S512x1024_S512 (.inl rfl) rfl (ix1 r) = ∑ h : Fin 1024, v (ix2 r h) := by
  refine (Ideal.multiReduction_add_single v 0x00000000#32 reduces_S512x1024_S512 (.inl rfl) rfl (ix1 r)).trans ?_
  refine Finset.sum_congr rfl fun k _ => congrArg v ?_
  funext c; apply Fin.ext
  fin_cases c <;> rfl

/-- The sum down the one column of a `[512, 1]` matrix. -/
theorem columnSum_apply (v : FVec Ideal S512x1 .f32) :
    multiReduction .add [0] S1 v 0x00000000#32 reduces_S512x1_S1 (.inl rfl) rfl (ix1 (0 : Fin 1)) = ∑ r : Fin 512, v (ix2 r (0 : Fin 1)) := by
  refine (Ideal.multiReduction_add_single v 0x00000000#32 reduces_S512x1_S1 (.inl rfl) rfl (ix1 (0 : Fin 1))).trans ?_
  refine Finset.sum_congr rfl fun k _ => congrArg v ?_
  funext c; apply Fin.ext
  fin_cases c <;> rfl

/-- The sum down column `c` of a `[512, 512]` matrix. -/
theorem rowsSum_apply (v : FVec Ideal S512x512 .f32) (c : Fin 512) :
    multiReduction .add [0] S512 v 0x00000000#32 reduces_S512x512_S512 (.inl rfl) rfl (ix1 c) = ∑ r : Fin 512, v (ix2 r c) := by
  refine (Ideal.multiReduction_add_single v 0x00000000#32 reduces_S512x512_S512 (.inl rfl) rfl (ix1 c)).trans ?_
  refine Finset.sum_congr rfl fun k _ => congrArg v ?_
  funext d; apply Fin.ext
  fin_cases d <;> rfl

/-! ## The matrix product -/

/-- The left operand's row coordinate is the result's. -/
theorem matmul_lhs_row (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl

/-- The right operand's column coordinate is the result's. -/
theorem matmul_rhs_col (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The tile's matrix product into a zero accumulator: entry `(p, h)` is the sum over the 512 features. -/
theorem matmul_apply (l : FVec Ideal S512x512 .bf16) (w : FVec Ideal S512x1024 .bf16) (p : Fin 512) (h : Fin 1024) :
    matmul dot_S512x512_S512x1024_S512x1024_1_0_0_1_n_n none l w (constant S512x1024 .f32 0x00000000#32) (ix2 p h)
      = ∑ k : Fin 512, l (ix2 p k) * w (ix2 k h) := by
  refine (Ideal.matmul_constant_zero_apply dot_S512x512_S512x1024_S512x1024_1_0_0_1_n_n none l w (ix2 p h)).trans ?_
  rw [← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 p h) ((ValueIdx.contrEquiv1 dot_S512x512_S512x1024_S512x1024_1_0_0_1_n_n 512 rfl rfl).symm k) = ix2 p k := funext fun a => Fin.ext (by
    match a with
    | ⟨0, _⟩ => exact matmul_lhs_row _ _
    | ⟨1, _⟩ => exact (dot_S512x512_S512x1024_S512x1024_1_0_0_1_n_n.lhsIdx_val_of_single rfl _ _).trans hk)
  have er : dot_S512x512_S512x1024_S512x1024_1_0_0_1_n_n.rhsIdx (ix2 p h) ((ValueIdx.contrEquiv1 dot_S512x512_S512x1024_S512x1024_1_0_0_1_n_n 512 rfl rfl).symm k) = ix2 k h := funext fun a => Fin.ext (by
    match a with
    | ⟨0, _⟩ => exact (dot_S512x512_S512x1024_S512x1024_1_0_0_1_n_n.rhsIdx_val_of_single rfl _ _).trans hk
    | ⟨1, _⟩ => exact matmul_rhs_col _ _)
  rw [el, er]

/-! ## The tile's weights -/

section Tile

variable (x0 : FVec Ideal S1x512x512 .f32) (x1 : FVec Ideal S512x1024 .bf16) (x2 : FVec Ideal S1x512x1 .f32)
  (x3 : FVec Ideal S1x1x1024 .f32) (x4 : FVec Ideal S1x1024 .f32) (x5 : FVec Ideal S1x1024 .f32) (x6 : FVec Ideal S1x1 .f32)

/-- The logit of position `r` of the tile, from the blocks. -/
def tileLogit (r : Fin 512) : EReal :=
  (∑ h : Fin 1024, Ideal.tanh (x3 (ix3 (0 : Fin 1) (0 : Fin 1) h)
      + ((∑ k : Fin 512, x0 (ix3 (0 : Fin 1) r k) * x1 (ix2 k h)) + x4 (ix2 (0 : Fin 1) h))) * x5 (ix2 (0 : Fin 1) h))
    + x6 (ix2 (0 : Fin 1) (0 : Fin 1))

/-- The hidden pre-product `tanh (…) · Wo` at `(r, h)`. -/
theorem hiddenTimesWo_apply (r : Fin 512) (h : Fin 1024) :
    (mulf (tanh (addf (broadcastTo S512x1024 (shapeCast S1x1024 x3 shapeCasts_S1x1x1024_S1x1024) broadcasts_S1x1024_S512x1024)
        (addf (matmul dot_S512x512_S512x1024_S512x1024_1_0_0_1_n_n none (truncf .bf16 (k0_pay6 x0) bitsLt_bf16_f32)
            x1 (constant S512x1024 .f32 0x00000000#32))
          (broadcastTo S512x1024 x4 broadcasts_S1x1024_S512x1024))))
      (broadcastTo S512x1024 x5 broadcasts_S1x1024_S512x1024) : FVec Ideal S512x1024 .f32) (ix2 r h)
    = Ideal.tanh (x3 (ix3 (0 : Fin 1) (0 : Fin 1) h)
      + ((∑ k : Fin 512, x0 (ix3 (0 : Fin 1) r k) * x1 (ix2 k h)) + x4 (ix2 (0 : Fin 1) h))) * x5 (ix2 (0 : Fin 1) h) := by
  rw [mulf_apply, tanh_apply, addf_apply, addf_apply, broadcastTo_1b_ab_apply, broadcastTo_1b_ab_apply, broadcastTo_1b_ab_apply,
    shapeCast_1ab_ab_apply, matmul_apply]
  refine congrArg (fun s => Ideal.tanh (x3 (ix3 (0 : Fin 1) (0 : Fin 1) h) + (s + x4 (ix2 (0 : Fin 1) h))) * x5 (ix2 (0 : Fin 1) h)) ?_
  refine Finset.sum_congr rfl fun k _ => ?_
  rw [truncf_apply]
  unfold k0_pay6
  rw [shapeCast_1ab_ab_apply]

/-- The tile's weight at position `r`: the mask entry times the exponential of the logit. -/
theorem tileWeights_apply (r : Fin 512) :
    tileWeights x0 x1 x2 x3 x4 x5 x6 (ix2 r (0 : Fin 1)) = x2 (ix3 (0 : Fin 1) r (0 : Fin 1)) * Ideal.exp (tileLogit x0 x1 x3 x4 x5 x6 r) := by
  unfold tileWeights k0_pay7
  dsimp only
  simp only [shapeCast_self]
  rw [mulf_apply, shapeCast_1ab_ab_apply]
  refine congrArg (fun s => x2 (ix3 (0 : Fin 1) r (0 : Fin 1)) * s) ?_
  rw [exp_apply, addf_apply, shapeCast_a_a1_apply, broadcastTo_1b_ab_apply]
  unfold tileLogit
  refine congrArg (fun s => Ideal.exp (s + x6 (ix2 (0 : Fin 1) (0 : Fin 1)))) ?_
  refine (laneSum_apply _ r).trans ?_
  exact Finset.sum_congr rfl fun h _ => hiddenTimesWo_apply x0 x1 x3 x4 x5 r h

end Tile

/-! ## The stored values -/

/-- The weights' block: the tile's weights under a leading unit axis. -/
theorem weightsBlock_apply (w : FVec Ideal S512x1 .f32) (r : Fin 512) :
    k0_pay1 w (ix3 (0 : Fin 1) r (0 : Fin 1)) = w (ix2 r (0 : Fin 1)) := by
  unfold k0_pay1
  rw [shapeCast_ab_1ab_apply]

/-- The running sum of the weights after a tile: what it held plus the tile's sum. -/
theorem sumStep_apply (w : FVec Ideal S512x1 .f32) (acc : FVec Ideal S1x1x1 .f32) :
    k0_pay2 w acc (ix3 (0 : Fin 1) (0 : Fin 1) (0 : Fin 1))
      = acc (ix3 (0 : Fin 1) (0 : Fin 1) (0 : Fin 1)) + ∑ r : Fin 512, w (ix2 r (0 : Fin 1)) := by
  unfold k0_pay2
  dsimp only
  rw [shapeCast_ab_1ab_apply, addf_apply, shapeCast_1ab_ab_apply, shapeCast_a_1a_apply, columnSum_apply]

/-- The running weighted sum of the context rows after a tile, at feature `c`. -/
theorem poolStep_apply (v4 : FVec Ideal S512x512 .f32) (w : FVec Ideal S512x1 .f32) (acc : FVec Ideal S1x1x512 .f32) (c : Fin 512) :
    k0_pay3 v4 w acc (ix3 (0 : Fin 1) (0 : Fin 1) c)
      = acc (ix3 (0 : Fin 1) (0 : Fin 1) c) + ∑ r : Fin 512, w (ix2 r (0 : Fin 1)) * v4 (ix2 r c) := by
  unfold k0_pay3
  dsimp only
  rw [shapeCast_ab_1ab_apply, addf_apply, shapeCast_1ab_ab_apply, shapeCast_a_1a_apply, rowsSum_apply]
  refine congrArg (fun s => acc (ix3 (0 : Fin 1) (0 : Fin 1) c) + s) (Finset.sum_congr rfl fun r _ => ?_)
  rw [mulf_apply, broadcastTo_a1_ab_apply]

/-- The zero the running sum restarts from. -/
theorem sumZero_apply : k0_pay4 (F := Ideal) (ix3 (0 : Fin 1) (0 : Fin 1) (0 : Fin 1)) = 0 := by
  unfold k0_pay4
  rw [shapeCast_ab_1ab_apply, broadcast_apply]
  exact Ideal.ofBits_zero_f32

/-- The zeros the running weighted sum restarts from. -/
theorem poolZero_apply (c : Fin 512) : k0_pay5 (F := Ideal) (ix3 (0 : Fin 1) (0 : Fin 1) c) = 0 := by
  unfold k0_pay5
  rw [shapeCast_ab_1ab_apply, broadcast_apply]
  exact Ideal.ofBits_zero_f32

/-- The context tile without its leading unit axis. -/
theorem ctxTile_apply (x0 : FVec Ideal S1x512x512 .f32) (r k : Fin 512) :
    k0_pay6 x0 (ix2 r k) = x0 (ix3 (0 : Fin 1) r k) := by
  unfold k0_pay6
  rw [shapeCast_1ab_ab_apply]

end Cert.KernelIdeal.Payload

end
-- ==== Proof.Pieces.lean ====
/-
  What one run of the kernel's body leaves in the three output blocks, as values.

  The body computes the unnormalised weights of a tile of 512 positions (`tileWeights`), stores them as the
  first output's block, and adds the tile's sum of weights, and its weighted sum of context rows, to the two
  running totals.  At a row's first tile (case A) the totals were just reset to zero by the body itself; at
  the other tiles (case B) they are what the tile before left.  The generated frame found these stores as
  lists of pieces; each list is read back here as one value: a single store that covers the block, or the
  zero store followed by the covering store that read it back.
-/
import proofs.«169427_j37151467110735_1_alg».proof.Proof.Gen.KernelIdeal.Frame
import proofs.«169427_j37151467110735_1_alg».proof.Proof.Payload
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen Cert.KernelIdeal.Payload

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a tile that is not a row's first, the weights' block is the tile's weights. -/
theorem out_B_7 (c : Dev nD) (i : grid0.Coords) (arg2 : Memref sig .tc .vmem S1x512x512 .f32) (harg2 : arg2.IsWhole) (arg3 : Memref sig .tc .vmem S512x1024 .bf16) (harg3 : arg3.IsWhole) (arg4 : Memref sig .tc .vmem S1x512x1 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x512x1 .f32) (harg9 : arg9.IsWhole) (arg10 : Memref sig .tc .vmem S1x1x1 .f32) (harg10 : arg10.IsWhole) (arg11 : Memref sig .tc .vmem S1x1x512 .f32) (harg11 : arg11.IsWhole) (hc0 : ¬cond0_0 i) (x0 : Vec F S1x512x512 .f32) (x1 : Vec F S512x1024 .bf16) (x2 : Vec F S1x512x1 .f32) (x3 : Vec F S1x1x1024 .f32) (x4 : Vec F S1x1024 .f32) (x5 : Vec F S1x1024 .f32) (x6 : Vec F S1x1 .f32) (xo8 : Vec F S1x1x1 .f32) (xo9 : Vec F S1x1x512 .f32) :
    out0_B_7 c i arg2 harg2 arg3 harg3 arg4 harg4 arg5 harg5 arg6 harg6 arg7 harg7 arg8 harg8 arg9 harg9 arg10 harg10 arg11 harg11 hc0 x0 x1 x2 x3 x4 x5 x6 xo8 xo9 = k0_pay1 (tileWeights x0 x1 x2 x3 x4 x5 x6) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x512) hz3, View.ld_unit_zero (S := S512x1024) hz2, View.ld_unit_zero (S := S1x512x1) hz3, View.ld_unit_zero (S := S1x1x1024) hz3, View.ld_unit_zero (S := S1x1024) hz2, View.ld_unit_zero (S := S1x1) hz2, View.ld_unit_zero (S := S1x1x1) hz3, View.ld_unit_zero (S := S1x1x512) hz3]

/-- There the running sum of the weights grows by the tile's sum, -/
theorem out_B_8 (c : Dev nD) (i : grid0.Coords) (arg2 : Memref sig .tc .vmem S1x512x512 .f32) (harg2 : arg2.IsWhole) (arg3 : Memref sig .tc .vmem S512x1024 .bf16) (harg3 : arg3.IsWhole) (arg4 : Memref sig .tc .vmem S1x512x1 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x512x1 .f32) (harg9 : arg9.IsWhole) (arg10 : Memref sig .tc .vmem S1x1x1 .f32) (harg10 : arg10.IsWhole) (arg11 : Memref sig .tc .vmem S1x1x512 .f32) (harg11 : arg11.IsWhole) (hc0 : ¬cond0_0 i) (x0 : Vec F S1x512x512 .f32) (x1 : Vec F S512x1024 .bf16) (x2 : Vec F S1x512x1 .f32) (x3 : Vec F S1x1x1024 .f32) (x4 : Vec F S1x1024 .f32) (x5 : Vec F S1x1024 .f32) (x6 : Vec F S1x1 .f32) (xo8 : Vec F S1x1x1 .f32) (xo9 : Vec F S1x1x512 .f32) :
    out0_B_8 c i arg2 harg2 arg3 harg3 arg4 harg4 arg5 harg5 arg6 harg6 arg7 harg7 arg8 harg8 arg9 harg9 arg10 harg10 arg11 harg11 hc0 x0 x1 x2 x3 x4 x5 x6 xo8 xo9 = k0_pay2 (tileWeights x0 x1 x2 x3 x4 x5 x6) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x512) hz3, View.ld_unit_zero (S := S512x1024) hz2, View.ld_unit_zero (S := S1x512x1) hz3, View.ld_unit_zero (S := S1x1x1024) hz3, View.ld_unit_zero (S := S1x1024) hz2, View.ld_unit_zero (S := S1x1) hz2, View.ld_unit_zero (S := S1x1x1) hz3, View.ld_unit_zero (S := S1x1x512) hz3]

/-- and the running weighted sum of the context rows by the tile's weighted sum. -/
theorem out_B_9 (c : Dev nD) (i : grid0.Coords) (arg2 : Memref sig .tc .vmem S1x512x512 .f32) (harg2 : arg2.IsWhole) (arg3 : Memref sig .tc .vmem S512x1024 .bf16) (harg3 : arg3.IsWhole) (arg4 : Memref sig .tc .vmem S1x512x1 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x512x1 .f32) (harg9 : arg9.IsWhole) (arg10 : Memref sig .tc .vmem S1x1x1 .f32) (harg10 : arg10.IsWhole) (arg11 : Memref sig .tc .vmem S1x1x512 .f32) (harg11 : arg11.IsWhole) (hc0 : ¬cond0_0 i) (x0 : Vec F S1x512x512 .f32) (x1 : Vec F S512x1024 .bf16) (x2 : Vec F S1x512x1 .f32) (x3 : Vec F S1x1x1024 .f32) (x4 : Vec F S1x1024 .f32) (x5 : Vec F S1x1024 .f32) (x6 : Vec F S1x1 .f32) (xo8 : Vec F S1x1x1 .f32) (xo9 : Vec F S1x1x512 .f32) :
    out0_B_9 c i arg2 harg2 arg3 harg3 arg4 harg4 arg5 harg5 arg6 harg6 arg7 harg7 arg8 harg8 arg9 harg9 arg10 harg10 arg11 harg11 hc0 x0 x1 x2 x3 x4 x5 x6 xo8 xo9 = k0_pay3 (k0_pay6 x0) (tileWeights x0 x1 x2 x3 x4 x5 x6) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x512) hz3, View.ld_unit_zero (S := S512x1024) hz2, View.ld_unit_zero (S := S1x512x1) hz3, View.ld_unit_zero (S := S1x1x1024) hz3, View.ld_unit_zero (S := S1x1024) hz2, View.ld_unit_zero (S := S1x1) hz2, View.ld_unit_zero (S := S1x1x1) hz3, View.ld_unit_zero (S := S1x1x512) hz3]

/-- At a row's first tile the weights' block is the tile's weights, -/
theorem out_A_7 (c : Dev nD) (i : grid0.Coords) (arg2 : Memref sig .tc .vmem S1x512x512 .f32) (harg2 : arg2.IsWhole) (arg3 : Memref sig .tc .vmem S512x1024 .bf16) (harg3 : arg3.IsWhole) (arg4 : Memref sig .tc .vmem S1x512x1 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x512x1 .f32) (harg9 : arg9.IsWhole) (arg10 : Memref sig .tc .vmem S1x1x1 .f32) (harg10 : arg10.IsWhole) (arg11 : Memref sig .tc .vmem S1x1x512 .f32) (harg11 : arg11.IsWhole) (hc0 : cond0_0 i) (x0 : Vec F S1x512x512 .f32) (x1 : Vec F S512x1024 .bf16) (x2 : Vec F S1x512x1 .f32) (x3 : Vec F S1x1x1024 .f32) (x4 : Vec F S1x1024 .f32) (x5 : Vec F S1x1024 .f32) (x6 : Vec F S1x1 .f32) :
    out0_A_7 c i arg2 harg2 arg3 harg3 arg4 harg4 arg5 harg5 arg6 harg6 arg7 harg7 arg8 harg8 arg9 harg9 arg10 harg10 arg11 harg11 hc0 x0 x1 x2 x3 x4 x5 x6 = k0_pay1 (tileWeights x0 x1 x2 x3 x4 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x512) hz3, View.ld_unit_zero (S := S512x1024) hz2, View.ld_unit_zero (S := S1x512x1) hz3, View.ld_unit_zero (S := S1x1x1024) hz3, View.ld_unit_zero (S := S1x1024) hz2, View.ld_unit_zero (S := S1x1) hz2, View.ld_unit_zero (S := S1x1x1) hz3, View.ld_unit_zero (S := S1x1x512) hz3]

/-- the running sum restarts from the zero it has just stored, -/
theorem out_A_8 (c : Dev nD) (i : grid0.Coords) (arg2 : Memref sig .tc .vmem S1x512x512 .f32) (harg2 : arg2.IsWhole) (arg3 : Memref sig .tc .vmem S512x1024 .bf16) (harg3 : arg3.IsWhole) (arg4 : Memref sig .tc .vmem S1x512x1 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x512x1 .f32) (harg9 : arg9.IsWhole) (arg10 : Memref sig .tc .vmem S1x1x1 .f32) (harg10 : arg10.IsWhole) (arg11 : Memref sig .tc .vmem S1x1x512 .f32) (harg11 : arg11.IsWhole) (hc0 : cond0_0 i) (x0 : Vec F S1x512x512 .f32) (x1 : Vec F S512x1024 .bf16) (x2 : Vec F S1x512x1 .f32) (x3 : Vec F S1x1x1024 .f32) (x4 : Vec F S1x1024 .f32) (x5 : Vec F S1x1024 .f32) (x6 : Vec F S1x1 .f32) :
    out0_A_8 c i arg2 harg2 arg3 harg3 arg4 harg4 arg5 harg5 arg6 harg6 arg7 harg7 arg8 harg8 arg9 harg9 arg10 harg10 arg11 harg11 hc0 x0 x1 x2 x3 x4 x5 x6 = k0_pay2 (tileWeights x0 x1 x2 x3 x4 x5 x6) k0_pay4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x512) hz3, View.ld_unit_zero (S := S512x1024) hz2, View.ld_unit_zero (S := S1x512x1) hz3, View.ld_unit_zero (S := S1x1x1024) hz3, View.ld_unit_zero (S := S1x1024) hz2, View.ld_unit_zero (S := S1x1) hz2, View.ld_unit_zero (S := S1x1x1) hz3, View.ld_unit_zero (S := S1x1x512) hz3]

/-- and so does the running weighted sum. -/
theorem out_A_9 (c : Dev nD) (i : grid0.Coords) (arg2 : Memref sig .tc .vmem S1x512x512 .f32) (harg2 : arg2.IsWhole) (arg3 : Memref sig .tc .vmem S512x1024 .bf16) (harg3 : arg3.IsWhole) (arg4 : Memref sig .tc .vmem S1x512x1 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x512x1 .f32) (harg9 : arg9.IsWhole) (arg10 : Memref sig .tc .vmem S1x1x1 .f32) (harg10 : arg10.IsWhole) (arg11 : Memref sig .tc .vmem S1x1x512 .f32) (harg11 : arg11.IsWhole) (hc0 : cond0_0 i) (x0 : Vec F S1x512x512 .f32) (x1 : Vec F S512x1024 .bf16) (x2 : Vec F S1x512x1 .f32) (x3 : Vec F S1x1x1024 .f32) (x4 : Vec F S1x1024 .f32) (x5 : Vec F S1x1024 .f32) (x6 : Vec F S1x1 .f32) :
    out0_A_9 c i arg2 harg2 arg3 harg3 arg4 harg4 arg5 harg5 arg6 harg6 arg7 harg7 arg8 harg8 arg9 harg9 arg10 harg10 arg11 harg11 hc0 x0 x1 x2 x3 x4 x5 x6 = k0_pay3 (k0_pay6 x0) (tileWeights x0 x1 x2 x3 x4 x5 x6) k0_pay5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1x1x512) hz3, View.readCov_unit_zero (S := S1x1x512) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x512) hz3, View.ld_unit_zero (S := S512x1024) hz2, View.ld_unit_zero (S := S1x512x1) hz3, View.ld_unit_zero (S := S1x1x1024) hz3, View.ld_unit_zero (S := S1x1024) hz2, View.ld_unit_zero (S := S1x1) hz2, View.ld_unit_zero (S := S1x1x1) hz3, View.ld_unit_zero (S := S1x1x512) hz3]

end Cert.KernelIdeal.Pieces

end
-- ==== Proof.Blocks.lean ====
/-
  Where each window's block sits in its array, and what the arrays written before the call hold.

  The grid is 32 rows × 4 tiles, point `t` being row `t / 4`, tile `t % 4`.  The context and the mask are
  read a tile of 512 positions at a time, so position `r` of the tile at point `t` is position
  `512 · (t % 4) + r` of row `t / 4`; the query projection is read a row at a time; the weights and biases
  whole.  The arrays the program computes before the call are the transposed context weight (rounded to
  bf16, which changes nothing over the extended reals), the query projection `q Wqᵀ` with a unit axis
  inserted, and the two biases reshaped.
-/
import proofs.«169427_j37151467110735_1_alg».proof.Proof.Gen.KernelIdeal.Frame
import proofs.«169427_j37151467110735_1_alg».proof.Proof.RefValue
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Cert.Attention
open Idealize.ShloMosaic.ValueIdx
open scoped BigOperators

/-! ## The index maps, decided over the grid -/

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)
theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val / 4 ∧ win0_9.index t (1 : Fin 3) = 0 ∧ win0_9.index t (2 : Fin 3) = 0 :=
  (by decide +kernel : ∀ t : Fin grid0.N, _)

theorem lt128 (t : Fin cfg0.N) : t.val < 128 := lt_of_lt_of_eq t.isLt (show cfg0.N = 128 from N_0)

/-- The batch row of point `t`. -/
def rowOf (t : Fin cfg0.N) : Fin 32 := ⟨t.val / 4, by have := lt128 t; omega⟩

/-- Position `r` of the tile of point `t`, as a position of the row. -/
def posOf (t : Fin cfg0.N) (r : Fin 512) : Fin 2048 := ⟨512 * (t.val % 4) + r.val, by have := r.isLt; omega⟩

/-! ## The blocks, read at coordinates -/

section Reads

variable {F : FTy → Type} [FloatOps F]
variable (m : (ℓ : Loc nD τ sig) → Buf (Elt F) ℓ)

/-- The context tile. -/
theorem ctx_read (c : Dev nD) (t : Fin cfg0.N) (r k : Fin 512) :
    (iblk m c 0 t : Vec F S1x512x512 .f32) (ix3 (0 : Fin 1) r k) = V m c main_arg1 (ix3 (rowOf t) (posOf t r) k) := by
  obtain ⟨e0, e1, e2⟩ := idx0 t
  unfold iblk
  rw [View.read_apply]
  show V m c main_arg1 (((cfg0.win 0).blk t).view.emb (ix3 (0 : Fin 1) r k)) = _
  refine congrArg (V m c main_arg1) ?_
  funext a; apply Fin.ext
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 512 + 1 * k.val = k.val; omega

/-- The transposed context weight, whole. -/
theorem wc_read (c : Dev nD) (t : Fin cfg0.N) (k : Fin 512) (h : Fin 1024) :
    (iblk m c 1 t : Vec F S512x1024 .bf16) (ix2 k h) = V m c main_v6 (ix2 k h) := by
  obtain ⟨e0, e1⟩ := idx1 t
  unfold iblk
  rw [View.read_apply]
  show V m c main_v6 (((cfg0.win 1).blk t).view.emb (ix2 k h)) = _
  refine congrArg (V m c main_v6) ?_
  funext a; apply Fin.ext
  match a with
  | ⟨0, _⟩ => show win0_1.index t (0 : Fin 2) * 512 + 1 * k.val = k.val; omega
  | ⟨1, _⟩ => show win0_1.index t (1 : Fin 2) * 1024 + 1 * h.val = h.val; omega

/-- The mask tile. -/
theorem mask_read (c : Dev nD) (t : Fin cfg0.N) (r : Fin 512) :
    (iblk m c 2 t : Vec F S1x512x1 .f32) (ix3 (0 : Fin 1) r (0 : Fin 1)) = V m c main_arg2 (ix3 (rowOf t) (posOf t r) (0 : Fin 1)) := by
  obtain ⟨e0, e1, e2⟩ := idx2 t
  unfold iblk
  rw [View.read_apply]
  show V m c main_arg2 (((cfg0.win 2).blk t).view.emb (ix3 (0 : Fin 1) r (0 : Fin 1))) = _
  refine congrArg (V m c main_arg2) ?_
  funext a; apply Fin.ext
  match a with
  | ⟨0, _⟩ => show win0_2.index t (0 : Fin 3) * 1 + 1 * 0 = t.val / 4; omega
  | ⟨1, _⟩ => show win0_2.index t (1 : Fin 3) * 512 + 1 * r.val = 512 * (t.val % 4) + r.val; omega
  | ⟨2, _⟩ => show win0_2.index t (2 : Fin 3) * 1 + 1 * 0 = 0; omega

/-- The query projection's row. -/
theorem resq_read (c : Dev nD) (t : Fin cfg0.N) (h : Fin 1024) :
    (iblk m c 3 t : Vec F S1x1x1024 .f32) (ix3 (0 : Fin 1) (0 : Fin 1) h) = V m c main_v2 (ix3 (rowOf t) (0 : Fin 1) h) := by
  obtain ⟨e0, e1, e2⟩ := idx3 t
  unfold iblk
  rw [View.read_apply]
  show V m c main_v2 (((cfg0.win 3).blk t).view.emb (ix3 (0 : Fin 1) (0 : Fin 1) h)) = _
  refine congrArg (V m c main_v2) ?_
  funext a; apply Fin.ext
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 1024 + 1 * h.val = h.val; omega

/-- The hidden bias, whole. -/
theorem bc_read (c : Dev nD) (t : Fin cfg0.N) (h : Fin 1024) :
    (iblk m c 4 t : Vec F S1x1024 .f32) (ix2 (0 : Fin 1) h) = V m c main_v3 (ix2 (0 : Fin 1) h) := by
  obtain ⟨e0, e1⟩ := idx4 t
  unfold iblk
  rw [View.read_apply]
  show V m c main_v3 (((cfg0.win 4).blk t).view.emb (ix2 (0 : Fin 1) h)) = _
  refine congrArg (V m c main_v3) ?_
  funext a; apply Fin.ext
  match a with
  | ⟨0, _⟩ => show win0_4.index t (0 : Fin 2) * 1 + 1 * 0 = 0; omega
  | ⟨1, _⟩ => show win0_4.index t (1 : Fin 2) * 1024 + 1 * h.val = h.val; omega

/-- The output weight, whole. -/
theorem wo_read (c : Dev nD) (t : Fin cfg0.N) (h : Fin 1024) :
    (iblk m c 5 t : Vec F S1x1024 .f32) (ix2 (0 : Fin 1) h) = V m c main_arg6 (ix2 (0 : Fin 1) h) := by
  obtain ⟨e0, e1⟩ := idx5 t
  unfold iblk
  rw [View.read_apply]
  show V m c main_arg6 (((cfg0.win 5).blk t).view.emb (ix2 (0 : Fin 1) h)) = _
  refine congrArg (V m c main_arg6) ?_
  funext a; apply Fin.ext
  match a with
  | ⟨0, _⟩ => show win0_5.index t (0 : Fin 2) * 1 + 1 * 0 = 0; omega
  | ⟨1, _⟩ => show win0_5.index t (1 : Fin 2) * 1024 + 1 * h.val = h.val; omega

/-- The output bias, whole. -/
theorem bo_read (c : Dev nD) (t : Fin cfg0.N) :
    (iblk m c 6 t : Vec F S1x1 .f32) (ix2 (0 : Fin 1) (0 : Fin 1)) = V m c main_v4 (ix2 (0 : Fin 1) (0 : Fin 1)) := by
  obtain ⟨e0, e1⟩ := idx6 t
  unfold iblk
  rw [View.read_apply]
  show V m c main_v4 (((cfg0.win 6).blk t).view.emb (ix2 (0 : Fin 1) (0 : Fin 1))) = _
  refine congrArg (V m c main_v4) ?_
  funext a; apply Fin.ext
  match a with
  | ⟨0, _⟩ => show win0_6.index t (0 : Fin 2) * 1 + 1 * 0 = 0; omega
  | ⟨1, _⟩ => show win0_6.index t (1 : Fin 2) * 1 + 1 * 0 = 0; omega

end Reads

/-! ## The arrays written before the call, over the extended reals -/

section Prefix

variable (m : (ℓ : Loc nD τ sig) → Buf (Elt Ideal) ℓ)

/-- The transposed context weight: entry `(k, h)` is `Wc (h, k)`; the rounding to bf16 is the identity here. -/
theorem wc_apply (c : Dev nD) (k : Fin 512) (h : Fin 1024) :
    V m c main_v6 (ix2 k h) = m ((c : Thread nD τ).loc main_arg4) (ix2 h k) := by
  have e : (V m c main_v6 : FVec Ideal S512x1024 .bf16)
      = truncf (F := Ideal) .bf16 (transpose S512x1024 [1, 0] (m ((c : Thread nD τ).loc main_arg4) : FVec Ideal S1024x512 .f32) transposes_S1024x512_S512x1024_1_0) bitsLt_bf16_f32 := by
    show StableHlo.after hostOps0 (fun b => m (c, b)) (Proc.devRef .tc main_v6) = _
    after_results
  rw [e, truncf_apply, transpose_ix2_apply]

/-- The hidden bias as a row. -/
theorem bc_apply (c : Dev nD) (h : Fin 1024) :
    V m c main_v3 (ix2 (0 : Fin 1) h) = m ((c : Thread nD τ).loc main_arg5) (ix1 h) := by
  have e : (V m c main_v3 : S1x1024.Idx → Ideal .f32)
      = shapeCast S1x1024 (m ((c : Thread nD τ).loc main_arg5)) shapeCasts_S1024_S1x1024 := by
    show StableHlo.after hostOps0 (fun b => m (c, b)) (Proc.devRef .tc main_v3) = _
    after_results
    rfl
  rw [e, shapeCast_a_1a_apply]

/-- The output bias as a `[1, 1]` matrix. -/
theorem bo_apply (c : Dev nD) :
    V m c main_v4 (ix2 (0 : Fin 1) (0 : Fin 1)) = m ((c : Thread nD τ).loc main_arg7) (ix1 (0 : Fin 1)) := by
  have e : (V m c main_v4 : S1x1.Idx → Ideal .f32)
      = shapeCast S1x1 (m ((c : Thread nD τ).loc main_arg7)) shapeCasts_S1_S1x1 := by
    show StableHlo.after hostOps0 (fun b => m (c, b)) (Proc.devRef .tc main_v4) = _
    after_results
    rfl
  rw [e, shapeCast_a_1a_apply]

/-- The query projection with its unit axis: entry `(b, 0, h)` is `(q Wqᵀ)(b, h)`. -/
theorem resq_apply (c : Dev nD) (b : Fin 32) (h : Fin 1024) :
    V m c main_v2 (ix3 b (0 : Fin 1) h)
      = queryProj (m ((c : Thread nD τ).loc main_arg0)) (m ((c : Thread nD τ).loc main_arg3)) b h := by
  have e : (V m c main_v2 : FVec Ideal S32x1x1024 .f32)
      = shapeCast S32x1x1024 (Host.dotGeneral (F := Ideal) (φ₁ := .f32) (φ₂ := .f32) dot_S32x512_S512x1024_S32x1024_1_0_0_1_n_n none
          (m ((c : Thread nD τ).loc main_arg0) : FVec Ideal S32x512 .f32)
          (transpose S512x1024 [1, 0] (m ((c : Thread nD τ).loc main_arg3) : FVec Ideal S1024x512 .f32) transposes_S1024x512_S512x1024_1_0)) shapeCasts_S32x1024_S32x1x1024 := by
    show StableHlo.after hostOps0 (fun b => m (c, b)) (Proc.devRef .tc main_v2) = _
    after_results
    rfl
  rw [e]
  refine (shapeCast_apply _ shapeCasts_S32x1024_S32x1x1024 (ix3 b (0 : Fin 1) h) (ix2 b h) (by
    rw [Shape.rowMajor_val_three, Shape.rowMajor_val_two]
    show b.val * 1024 + h.val = (b.val * 1 + 0) * 1024 + h.val
    omega)).trans ?_
  exact Cert.ReferenceIdeal.RefValue.queryProj_eq (m ((c : Thread nD τ).loc main_arg0)) (m ((c : Thread nD τ).loc main_arg3)) b h

end Prefix

end Cert.KernelIdeal.Blocks

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.Tiles.lean ====
/-
  Running totals over the four tiles of a row.

  The grid visits the 128 points in order, four consecutive points making a row.  A running total that is
  restarted from zero at a row's first point and otherwise grows by the point's tile sum holds, after point
  `n`, the sum of the tiles of `n`'s row up to `n`'s own; after a row's last point it is the sum over the whole
  row of 2048 positions.  Only commutativity and associativity of `+` are used, so this holds on the
  extended reals.
-/
import proofs.«169427_j37151467110735_1_alg».proof.Proof.LibBlockSum
import Mathlib.Algebra.BigOperators.Intervals

namespace Cert.Attention

open scoped BigOperators

/-- The running total after point `n` is the sum of the row's tiles `0 … n % 4`. -/
theorem tiles_fold {M : Type*} [AddCommMonoid M] (N : ℕ) (a : ℕ → M) (g : ℕ → ℕ → M)
    (hA : ∀ n, n < N → n % 4 = 0 → a n = 0 + ∑ r : Fin 512, g (n / 4) (512 * (n % 4) + r.val))
    (hB : ∀ n, n + 1 < N → (n + 1) % 4 ≠ 0 →
      a (n + 1) = a n + ∑ r : Fin 512, g ((n + 1) / 4) (512 * ((n + 1) % 4) + r.val)) :
    ∀ n, n < N → a n = ∑ s ∈ Finset.range (n % 4 + 1), ∑ r : Fin 512, g (n / 4) (512 * s + r.val) := by
  have first : ∀ n, n < N → n % 4 = 0 →
      a n = ∑ s ∈ Finset.range (n % 4 + 1), ∑ r : Fin 512, g (n / 4) (512 * s + r.val) := by
    intro n h h4
    rw [hA n h h4, h4]
    simp only [zero_add, Finset.sum_range_one]
  intro n
  induction n with
  | zero => exact fun h => first 0 h rfl
  | succ n ih =>
    intro h
    by_cases h4 : (n + 1) % 4 = 0
    · exact first (n + 1) h h4
    · have e1 : (n + 1) / 4 = n / 4 := by omega
      have e2 : (n + 1) % 4 = n % 4 + 1 := by omega
      rw [hB n h h4, ih (by omega), e1, e2, Finset.sum_range_succ _ (n % 4 + 1)]

/-- The four tiles of a row together are the row. -/
theorem tiles_total {M : Type*} [AddCommMonoid M] (f : ℕ → M) :
    ∑ s ∈ Finset.range 4, ∑ r : Fin 512, f (512 * s + r.val) = ∑ k : Fin 2048, f k.val :=
  Cert.Lib.sum_blocks 4 512 f

end Cert.Attention
-- ==== Proof.Totals.lean ====
/-
  What the three output blocks hold after each grid point.

  After point `t` (row `t / 4`, tile `t % 4`) the first block holds the tile's unnormalised weights, which are the
  specification's weights of the row at the tile's positions; the second holds the sum of the row's weights
  over the tiles visited so far, the third the sum over those tiles of weight times context entry, per
  feature.  The two totals restart at a row's first tile and grow by the tile's sum otherwise, so after a
  row's last tile they are the sums over the whole row.
-/
import proofs.«169427_j37151467110735_1_alg».proof.Proof.Pieces
import proofs.«169427_j37151467110735_1_alg».proof.Proof.Blocks
import proofs.«169427_j37151467110735_1_alg».proof.Proof.Tiles

noncomputable section

open Idealize.ShloMosaic Idealize.ShloMosaic.TcCoe Idealize.SL.Sem

namespace Cert.KernelIdeal.Totals

open Cert.KernelIdeal Cert.KernelIdeal.Gen Cert.KernelIdeal.Payload Cert.KernelIdeal.Pieces Cert.KernelIdeal.Blocks Cert.Attention
open Idealize.ShloMosaic.ValueIdx
open scoped BigOperators

/-! ## The outputs after a point, from the point's blocks -/

section Outputs

variable {F : FTy → Type} [FloatOps F]
variable (m : (ℓ : Loc nD τ sig) → Buf (Elt F) ℓ)

/-- The tile's weights at point `t`. -/
def tileW (c : Dev nD) (t : Fin cfg0.N) : FVec F S512x1 .f32 :=
  tileWeights (iblk m c 0 t) (iblk m c 1 t) (iblk m c 2 t) (iblk m c 3 t) (iblk m c 4 t) (iblk m c 5 t) (iblk m c 6 t)

/-- After a row's first tile. -/
theorem outs_first (c : Dev nD) (t : Fin cfg0.N) (h0 : t.val % 4 = 0) :
    outsAt0 m c t.val t.isLt
      = (k0_pay1 (tileW m c t), k0_pay2 (tileW m c t) k0_pay4, k0_pay3 (k0_pay6 (iblk m c 0 t)) (tileW m c t) k0_pay5) :=
  (outsAt0_A m c t h0).trans (congrArg₂ Prod.mk (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t))
    (congrArg₂ Prod.mk (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t)) (out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t))))

/-- After any other tile: the totals grow from what the tile before left. -/
theorem outs_next (c : Dev nD) (t : Fin cfg0.N) (h0 : ¬t.val % 4 = 0) :
    outsAt0 m c t.val t.isLt
      = (k0_pay1 (tileW m c t), k0_pay2 (tileW m c t) (outsAt0 m c (t.val - 1) (Nat.lt_of_le_of_lt (Nat.sub_le _ _) t.isLt)).2.1,
          k0_pay3 (k0_pay6 (iblk m c 0 t)) (tileW m c t) (outsAt0 m c (t.val - 1) (Nat.lt_of_le_of_lt (Nat.sub_le _ _) t.isLt)).2.2) :=
  (outsAt0_B m c t h0).trans (congrArg₂ Prod.mk (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2)
    (congrArg₂ Prod.mk (out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) (out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2)))

/-- The weights' block after any point is the point's tile. -/
theorem weights_block (c : Dev nD) (t : Fin cfg0.N) : (outsAt0 m c t.val t.isLt).1 = k0_pay1 (tileW m c t) := by
  by_cases h0 : t.val % 4 = 0
  · rw [outs_first m c t h0]
  · rw [outs_next m c t h0]

end Outputs

/-! ## Over the extended reals -/

section Values

variable (m : (ℓ : Loc nD τ sig) → Buf (Elt Ideal) ℓ)

/-- The specification's unnormalised weights of the launch arrays on core `c`. -/
def wOf (c : Dev nD) : Fin 32 → Fin 2048 → EReal :=
  unnorm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The tile's weights are the specification's, at the tile's positions of the point's row. -/
theorem tile_eq (c : Dev nD) (t : Fin cfg0.N) (r : Fin 512) :
    tileW m c t (ix2 r (0 : Fin 1)) = wOf m c (rowOf t) (posOf t r) := by
  unfold tileW
  refine (tileWeights_apply (iblk m c 0 t) (iblk m c 1 t) (iblk m c 2 t) (iblk m c 3 t) (iblk m c 4 t) (iblk m c 5 t) (iblk m c 6 t) r).trans ?_
  unfold tileLogit wOf unnorm logit Cert.Attention.hidden contextProj
  simp only [mask_read m c t, V_main_arg2 m c, bo_read m c t, bo_apply m c, resq_read m c t, resq_apply m c, bc_read m c t,
    bc_apply m c, wo_read m c t, V_main_arg6 m c, ctx_read m c t, V_main_arg1 m c, wc_read m c t, wc_apply m c]

/-- The row's weights over the naturals, zero beyond the array. -/
def wNat (c : Dev nD) (b k : ℕ) : EReal := if h : b < 32 ∧ k < 2048 then wOf m c ⟨b, h.1⟩ ⟨k, h.2⟩ else 0

/-- The row's weights times the context entries of feature `f`, over the naturals. -/
def wxNat (c : Dev nD) (f : Fin 512) (b k : ℕ) : EReal :=
  if h : b < 32 ∧ k < 2048 then wOf m c ⟨b, h.1⟩ ⟨k, h.2⟩ * m ((c : Thread nD τ).loc main_arg1) (ix3 (⟨b, h.1⟩ : Fin 32) (⟨k, h.2⟩ : Fin 2048) f) else 0

theorem tileSum_eq (c : Dev nD) (t : Fin cfg0.N) :
    ∑ r : Fin 512, tileW m c t (ix2 r (0 : Fin 1)) = ∑ r : Fin 512, wNat m c (t.val / 4) (512 * (t.val % 4) + r.val) := by
  refine Finset.sum_congr rfl fun r _ => ?_
  rw [tile_eq]
  unfold wNat
  rw [dif_pos ⟨by have := lt128 t; omega, by have := r.isLt; omega⟩]
  rfl

theorem tilePool_eq (c : Dev nD) (t : Fin cfg0.N) (f : Fin 512) :
    ∑ r : Fin 512, tileW m c t (ix2 r (0 : Fin 1)) * k0_pay6 (iblk m c 0 t) (ix2 r f)
      = ∑ r : Fin 512, wxNat m c f (t.val / 4) (512 * (t.val % 4) + r.val) := by
  refine Finset.sum_congr rfl fun r _ => ?_
  rw [tile_eq, ctxTile_apply, ctx_read m c t r f, V_main_arg1 m c]
  unfold wxNat
  rw [dif_pos ⟨by have := lt128 t; omega, by have := r.isLt; omega⟩]
  rfl

/-- The running sum of the weights after point `n`. -/
def sumAt (c : Dev nD) (n : ℕ) : EReal :=
  if hn : n < cfg0.N then (outsAt0 m c n hn).2.1 (ix3 (0 : Fin 1) (0 : Fin 1) (0 : Fin 1)) else 0

/-- The running weighted sum of feature `f` after point `n`. -/
def poolAt (c : Dev nD) (f : Fin 512) (n : ℕ) : EReal :=
  if hn : n < cfg0.N then (outsAt0 m c n hn).2.2 (ix3 (0 : Fin 1) (0 : Fin 1) f) else 0

theorem sumAt_eq (c : Dev nD) : ∀ n, n < cfg0.N →
    sumAt m c n = ∑ s ∈ Finset.range (n % 4 + 1), ∑ r : Fin 512, wNat m c (n / 4) (512 * s + r.val) := by
  have hN : cfg0.N = 128 := N_0
  refine tiles_fold cfg0.N (sumAt m c) (wNat m c) (fun n hn h4 => ?_) (fun n hn h4 => ?_)
  · unfold sumAt
    rw [dif_pos hn]
    have e := outs_first m c ⟨n, hn⟩ h4
    rw [show outsAt0 m c n hn = _ from e]
    show k0_pay2 (tileW m c ⟨n, hn⟩) (k0_pay4 (F := Ideal)) (ix3 (0 : Fin 1) (0 : Fin 1) (0 : Fin 1)) = _
    rw [sumStep_apply, sumZero_apply, tileSum_eq]
  · unfold sumAt
    rw [dif_pos hn, dif_pos (by omega : n < cfg0.N)]
    have e := outs_next m c ⟨n + 1, hn⟩ h4
    rw [show outsAt0 m c (n + 1) hn = _ from e]
    show k0_pay2 (tileW m c ⟨n + 1, hn⟩) (outsAt0 m c n _).2.1 (ix3 (0 : Fin 1) (0 : Fin 1) (0 : Fin 1)) = _
    rw [sumStep_apply, tileSum_eq]

theorem poolAt_eq (c : Dev nD) (f : Fin 512) : ∀ n, n < cfg0.N →
    poolAt m c f n = ∑ s ∈ Finset.range (n % 4 + 1), ∑ r : Fin 512, wxNat m c f (n / 4) (512 * s + r.val) := by
  have hN : cfg0.N = 128 := N_0
  refine tiles_fold cfg0.N (poolAt m c f) (wxNat m c f) (fun n hn h4 => ?_) (fun n hn h4 => ?_)
  · unfold poolAt
    rw [dif_pos hn]
    have e := outs_first m c ⟨n, hn⟩ h4
    rw [show outsAt0 m c n hn = _ from e]
    show k0_pay3 (k0_pay6 (iblk m c 0 ⟨n, hn⟩)) (tileW m c ⟨n, hn⟩) (k0_pay5 (F := Ideal)) (ix3 (0 : Fin 1) (0 : Fin 1) f) = _
    rw [poolStep_apply, poolZero_apply, tilePool_eq]
  · unfold poolAt
    rw [dif_pos hn, dif_pos (by omega : n < cfg0.N)]
    have e := outs_next m c ⟨n + 1, hn⟩ h4
    rw [show outsAt0 m c (n + 1) hn = _ from e]
    show k0_pay3 (k0_pay6 (iblk m c 0 ⟨n + 1, hn⟩)) (tileW m c ⟨n + 1, hn⟩) (outsAt0 m c n _).2.2 (ix3 (0 : Fin 1) (0 : Fin 1) f) = _
    rw [poolStep_apply, tilePool_eq]

/-- After a row's last tile the running sum is the sum of the row's weights. -/
theorem sum_row (c : Dev nD) (t : Fin cfg0.N) (h3 : t.val % 4 = 3) :
    (outsAt0 m c t.val t.isLt).2.1 (ix3 (0 : Fin 1) (0 : Fin 1) (0 : Fin 1)) = ∑ l : Fin 2048, wOf m c (rowOf t) l := by
  have h := sumAt_eq m c t.val t.isLt
  unfold sumAt at h
  rw [dif_pos t.isLt, h3] at h
  rw [h, tiles_total (wNat m c (t.val / 4))]
  refine Finset.sum_congr rfl fun l _ => ?_
  unfold wNat
  rw [dif_pos ⟨by have := lt128 t; omega, l.isLt⟩]
  rfl

/-- After a row's last tile the running weighted sum of feature `f` is the sum over the row. -/
theorem pool_row (c : Dev nD) (t : Fin cfg0.N) (h3 : t.val % 4 = 3) (f : Fin 512) :
    (outsAt0 m c t.val t.isLt).2.2 (ix3 (0 : Fin 1) (0 : Fin 1) f)
      = ∑ l : Fin 2048, wOf m c (rowOf t) l * m ((c : Thread nD τ).loc main_arg1) (ix3 (rowOf t) l f) := by
  have h := poolAt_eq m c f t.val t.isLt
  unfold poolAt at h
  rw [dif_pos t.isLt, h3] at h
  rw [h, tiles_total (wxNat m c f (t.val / 4))]
  refine Finset.sum_congr rfl fun l _ => ?_
  unfold wxNat
  rw [dif_pos ⟨by have := lt128 t; omega, l.isLt⟩]
  rfl

end Values

end Cert.KernelIdeal.Totals

end
-- ==== Proof.KernelValue.lean ====
/-
  What the kernel's program computes, over the extended reals.

  The call leaves three arrays: the unnormalised weights (each tile written back at its own point), the sum
  of each row's weights and each row's weighted sum of context rows (both written back after the row's last
  tile).  The program then adds `ε` to the sums, divides the weights by that normaliser, and divides the
  pooled context by it: the specification's `weights` and `pooled`.
-/
import proofs.«169427_j37151467110735_1_alg».proof.Proof.Totals
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Payload Cert.KernelIdeal.Blocks Cert.KernelIdeal.Totals Cert.Attention
open Idealize.ShloMosaic.ValueIdx
open scoped BigOperators

variable (m : (ℓ : Loc nD τ sig) → Buf (Elt Ideal) ℓ) (ρ : Dev nD → PrngReg)

/-! ## The three arrays the call leaves -/

/-- The unnormalised weights. -/
def weightsArr (c : Dev nD) : Buf (Elt Ideal) ((c : Thread nD τ).loc main_v7_0) := fun i => wOf m c (i 0) (i 1)

/-- Each row's sum of weights. -/
def sumArr (c : Dev nD) : Buf (Elt Ideal) ((c : Thread nD τ).loc main_v7_1) := fun i => ((∑ l : Fin 2048, wOf m c (i 0) l : EReal))

/-- Each row's weighted sum of context rows. -/
def poolArr (c : Dev nD) : Buf (Elt Ideal) ((c : Thread nD τ).loc main_v7_2) :=
  fun i => ((∑ l : Fin 2048, wOf m c (i 0) l * m ((c : Thread nD τ).loc main_arg1) (ix3 (i 0) l (i 2)) : EReal))

/-! ### Where an output block's entries sit in the array -/

theorem emb7 (t : Fin cfg0.N) (r : Fin 512) :
    ((cfg0.win 7).blk t).view.emb (ix3 (0 : Fin 1) r (0 : Fin 1)) = ix3 (rowOf t) (posOf t r) (0 : Fin 1) := by
  obtain ⟨e0, e1, e2⟩ := idx7 t
  funext a; apply Fin.ext
  match a with
  | ⟨0, _⟩ => show win0_7.index t (0 : Fin 3) * 1 + 1 * 0 = t.val / 4; omega
  | ⟨1, _⟩ => show win0_7.index t (1 : Fin 3) * 512 + 1 * r.val = 512 * (t.val % 4) + r.val; omega
  | ⟨2, _⟩ => show win0_7.index t (2 : Fin 3) * 1 + 1 * 0 = 0; omega

theorem emb8 (t : Fin cfg0.N) :
    ((cfg0.win 8).blk t).view.emb (ix3 (0 : Fin 1) (0 : Fin 1) (0 : Fin 1)) = ix3 (rowOf t) (0 : Fin 1) (0 : Fin 1) := by
  obtain ⟨e0, e1, e2⟩ := idx8 t
  funext a; apply Fin.ext
  match a with
  | ⟨0, _⟩ => show win0_8.index t (0 : Fin 3) * 1 + 1 * 0 = t.val / 4; omega
  | ⟨1, _⟩ => show win0_8.index t (1 : Fin 3) * 1 + 1 * 0 = 0; omega
  | ⟨2, _⟩ => show win0_8.index t (2 : Fin 3) * 1 + 1 * 0 = 0; omega

theorem emb9 (t : Fin cfg0.N) (f : Fin 512) :
    ((cfg0.win 9).blk t).view.emb (ix3 (0 : Fin 1) (0 : Fin 1) f) = ix3 (rowOf t) (0 : Fin 1) f := by
  obtain ⟨e0, e1, e2⟩ := idx9 t
  funext a; apply Fin.ext
  match a with
  | ⟨0, _⟩ => show win0_9.index t (0 : Fin 3) * 1 + 1 * 0 = t.val / 4; omega
  | ⟨1, _⟩ => show win0_9.index t (1 : Fin 3) * 1 + 1 * 0 = 0; omega
  | ⟨2, _⟩ => show win0_9.index t (2 : Fin 3) * 512 + 1 * f.val = f.val; omega

/-! ### What each point writes back -/

theorem flushed7_eq (c : Dev nD) (t : Fin cfg0.N) :
    (dats m 0 c).flushed 7 t = ((cfg0.win 7).blk t).view.read (Elt Ideal) (weightsArr m c) := by
  show (cfg0.win 7).cut (grid0.coords t) ((dats m 0 c).after 7 t) = _
  rw [after0_7, weights_block]
  funext y
  obtain ⟨u, r, v, rfl⟩ : ∃ (u : Fin 1) (r : Fin 512) (v : Fin 1), y = ix3 u r v := ⟨y 0, y 1, y 2, eq_ix3 y⟩
  obtain rfl : u = 0 := Subsingleton.elim _ _
  obtain rfl : v = 0 := Subsingleton.elim _ _
  rw [View.read_apply]
  show k0_pay1 (tileW m c t) (ix3 (0 : Fin 1) r (0 : Fin 1)) = weightsArr m c (((cfg0.win 7).blk t).view.emb (ix3 (0 : Fin 1) r (0 : Fin 1)))
  rw [emb7, weightsBlock_apply, tile_eq]
  rfl

theorem flushed8_eq (c : Dev nD) (t : Fin cfg0.N) (hf : (cfg0.win 8).flush t = true) :
    (dats m 0 c).flushed 8 t = ((cfg0.win 8).blk t).view.read (Elt Ideal) (sumArr m c) := by
  have h3 : t.val % 4 = 3 := (flush0_8 t).mp hf
  show (cfg0.win 8).cut (grid0.coords t) ((dats m 0 c).after 8 t) = _
  rw [after0_8]
  funext y
  obtain ⟨u, v, w, rfl⟩ : ∃ (u : Fin 1) (v : Fin 1) (w : Fin 1), y = ix3 u v w := ⟨y 0, y 1, y 2, eq_ix3 y⟩
  obtain rfl : u = 0 := Subsingleton.elim _ _
  obtain rfl : v = 0 := Subsingleton.elim _ _
  obtain rfl : w = 0 := Subsingleton.elim _ _
  rw [View.read_apply]
  show (outsAt0 m c t.val t.isLt).2.1 (ix3 (0 : Fin 1) (0 : Fin 1) (0 : Fin 1)) = sumArr m c (((cfg0.win 8).blk t).view.emb (ix3 (0 : Fin 1) (0 : Fin 1) (0 : Fin 1)))
  rw [emb8, sum_row m c t h3]
  rfl

theorem flushed9_eq (c : Dev nD) (t : Fin cfg0.N) (hf : (cfg0.win 9).flush t = true) :
    (dats m 0 c).flushed 9 t = ((cfg0.win 9).blk t).view.read (Elt Ideal) (poolArr m c) := by
  have h3 : t.val % 4 = 3 := (flush0_9 t).mp hf
  show (cfg0.win 9).cut (grid0.coords t) ((dats m 0 c).after 9 t) = _
  rw [after0_9]
  funext y
  obtain ⟨u, v, f, rfl⟩ : ∃ (u : Fin 1) (v : Fin 1) (f : Fin 512), y = ix3 u v f := ⟨y 0, y 1, y 2, eq_ix3 y⟩
  obtain rfl : u = 0 := Subsingleton.elim _ _
  obtain rfl : v = 0 := Subsingleton.elim _ _
  rw [View.read_apply]
  show (outsAt0 m c t.val t.isLt).2.2 (ix3 (0 : Fin 1) (0 : Fin 1) f) = poolArr m c (((cfg0.win 9).blk t).view.emb (ix3 (0 : Fin 1) (0 : Fin 1) f))
  rw [emb9, pool_row m c t h3 f]
  rfl

/-! ### Every index of each array is written back by some point -/

theorem mem_blk7 (t : Fin cfg0.N) (i : S32x2048x1.Idx) :
    i ∈ ((cfg0.win 7).blk t).view.set ↔ ∀ a : Fin 3, win0_7.index t a * S1x512x1.size a ≤ (i a).val ∧ (i a).val < win0_7.index t a * S1x512x1.size a + S1x512x1.size a := by
  show i ∈ ((View.whole main_v7_0).slice (win0_7.rect t)).set ↔ _
  rw [View.set_slice_whole, Rect.mem_set_unit]
  exact Iff.rfl

theorem mem_blk8 (t : Fin cfg0.N) (i : S32x1x1.Idx) :
    i ∈ ((cfg0.win 8).blk t).view.set ↔ ∀ a : Fin 3, win0_8.index t a * S1x1x1.size a ≤ (i a).val ∧ (i a).val < win0_8.index t a * S1x1x1.size a + S1x1x1.size a := by
  show i ∈ ((View.whole main_v7_1).slice (win0_8.rect t)).set ↔ _
  rw [View.set_slice_whole, Rect.mem_set_unit]
  exact Iff.rfl

theorem mem_blk9 (t : Fin cfg0.N) (i : S32x1x512.Idx) :
    i ∈ ((cfg0.win 9).blk t).view.set ↔ ∀ a : Fin 3, win0_9.index t a * S1x1x512.size a ≤ (i a).val ∧ (i a).val < win0_9.index t a * S1x1x512.size a + S1x1x512.size a := by
  show i ∈ ((View.whole main_v7_2).slice (win0_9.rect t)).set ↔ _
  rw [View.set_slice_whole, Rect.mem_set_unit]
  exact Iff.rfl

/-- Position `(b, l)` is written back by the point of row `b`, tile `l / 512`. -/
theorem cover7 (i : S32x2048x1.Idx) :
    ∃ t : Fin cfg0.N, (cfg0.win 7).flush t = true ∧ i ∈ ((cfg0.win 7).blk t).view.set := by
  have h0 : (i 0).val < 32 := (i 0).isLt
  have h1 : (i 1).val < 2048 := (i 1).isLt
  have h2 : (i 2).val < 1 := (i 2).isLt
  have hN : cfg0.N = 128 := N_0
  have hlt : 4 * (i 0).val + (i 1).val / 512 < cfg0.N := by omega
  refine ⟨⟨4 * (i 0).val + (i 1).val / 512, hlt⟩, flush0_7 _, ?_⟩
  rw [mem_blk7]
  obtain ⟨e0, e1, e2⟩ := idx7 ⟨4 * (i 0).val + (i 1).val / 512, hlt⟩
  have e0' : win0_7.index ⟨4 * (i 0).val + (i 1).val / 512, hlt⟩ (0 : Fin 3) = (4 * (i 0).val + (i 1).val / 512) / 4 := e0
  have e1' : win0_7.index ⟨4 * (i 0).val + (i 1).val / 512, hlt⟩ (1 : Fin 3) = (4 * (i 0).val + (i 1).val / 512) % 4 := e1
  intro a
  match a with
  | ⟨0, _⟩ =>
    show win0_7.index _ (0 : Fin 3) * 1 ≤ (i 0).val ∧ (i 0).val < win0_7.index _ (0 : Fin 3) * 1 + 1
    rw [e0']; omega
  | ⟨1, _⟩ =>
    show win0_7.index _ (1 : Fin 3) * 512 ≤ (i 1).val ∧ (i 1).val < win0_7.index _ (1 : Fin 3) * 512 + 512
    rw [e1']; omega
  | ⟨2, _⟩ =>
    show win0_7.index _ (2 : Fin 3) * 1 ≤ (i 2).val ∧ (i 2).val < win0_7.index _ (2 : Fin 3) * 1 + 1
    rw [e2]; omega

/-- Row `b`'s sum is written back by the row's last point. -/
theorem cover8 (i : S32x1x1.Idx) :
    ∃ t : Fin cfg0.N, (cfg0.win 8).flush t = true ∧ i ∈ ((cfg0.win 8).blk t).view.set := by
  have h0 : (i 0).val < 32 := (i 0).isLt
  have h1 : (i 1).val < 1 := (i 1).isLt
  have h2 : (i 2).val < 1 := (i 2).isLt
  have hN : cfg0.N = 128 := N_0
  have hlt : 4 * (i 0).val + 3 < cfg0.N := by omega
  refine ⟨⟨4 * (i 0).val + 3, hlt⟩, (flush0_8 _).mpr (by show (4 * (i 0).val + 3) % 4 = 3; omega), ?_⟩
  rw [mem_blk8]
  obtain ⟨e0, e1, e2⟩ := idx8 ⟨4 * (i 0).val + 3, hlt⟩
  have e0' : win0_8.index ⟨4 * (i 0).val + 3, hlt⟩ (0 : Fin 3) = (4 * (i 0).val + 3) / 4 := e0
  intro a
  match a with
  | ⟨0, _⟩ =>
    show win0_8.index _ (0 : Fin 3) * 1 ≤ (i 0).val ∧ (i 0).val < win0_8.index _ (0 : Fin 3) * 1 + 1
    rw [e0']; omega
  | ⟨1, _⟩ =>
    show win0_8.index _ (1 : Fin 3) * 1 ≤ (i 1).val ∧ (i 1).val < win0_8.index _ (1 : Fin 3) * 1 + 1
    rw [e1]; omega
  | ⟨2, _⟩ =>
    show win0_8.index _ (2 : Fin 3) * 1 ≤ (i 2).val ∧ (i 2).val < win0_8.index _ (2 : Fin 3) * 1 + 1
    rw [e2]; omega

/-- Row `b`'s weighted sum is written back by the row's last point. -/
theorem cover9 (i : S32x1x512.Idx) :
    ∃ t : Fin cfg0.N, (cfg0.win 9).flush t = true ∧ i ∈ ((cfg0.win 9).blk t).view.set := by
  have h0 : (i 0).val < 32 := (i 0).isLt
  have h1 : (i 1).val < 1 := (i 1).isLt
  have h2 : (i 2).val < 512 := (i 2).isLt
  have hN : cfg0.N = 128 := N_0
  have hlt : 4 * (i 0).val + 3 < cfg0.N := by omega
  refine ⟨⟨4 * (i 0).val + 3, hlt⟩, (flush0_9 _).mpr (by show (4 * (i 0).val + 3) % 4 = 3; omega), ?_⟩
  rw [mem_blk9]
  obtain ⟨e0, e1, e2⟩ := idx9 ⟨4 * (i 0).val + 3, hlt⟩
  have e0' : win0_9.index ⟨4 * (i 0).val + 3, hlt⟩ (0 : Fin 3) = (4 * (i 0).val + 3) / 4 := e0
  intro a
  match a with
  | ⟨0, _⟩ =>
    show win0_9.index _ (0 : Fin 3) * 1 ≤ (i 0).val ∧ (i 0).val < win0_9.index _ (0 : Fin 3) * 1 + 1
    rw [e0']; omega
  | ⟨1, _⟩ =>
    show win0_9.index _ (1 : Fin 3) * 1 ≤ (i 1).val ∧ (i 1).val < win0_9.index _ (1 : Fin 3) * 1 + 1
    rw [e1]; omega
  | ⟨2, _⟩ =>
    show win0_9.index _ (2 : Fin 3) * 512 ≤ (i 2).val ∧ (i 2).val < win0_9.index _ (2 : Fin 3) * 512 + 512
    rw [e2]; omega

/-! ### The arrays after the call -/

theorem final7 (c : Dev nD) : (dats m 0 c).arrAt 7 cfg0.N = weightsArr m c :=
  (dats m 0 c).arrAt_eq_of_cover 7 (weightsArr m c) (fun t _ => flushed7_eq m c t) cover7

theorem final8 (c : Dev nD) : (dats m 0 c).arrAt 8 cfg0.N = sumArr m c :=
  (dats m 0 c).arrAt_eq_of_cover 8 (sumArr m c) (flushed8_eq m c) cover8

theorem final9 (c : Dev nD) : (dats m 0 c).arrAt 9 cfg0.N = poolArr m c :=
  (dats m 0 c).arrAt_eq_of_cover 9 (poolArr m c) (flushed9_eq m c) cover9

/-! ## The lines after the call -/

/-- The program's second result: the normalised weights. -/
def weightsRes (c : Dev nD) : Buf (Elt Ideal) ((c : Thread nD τ).loc main_v11) :=
  fun i => weights (wOf m c) (i 0) (i 1)

/-- The program's first result: the pooled context, normalised after pooling. -/
def pooledRes (c : Dev nD) : Buf (Elt Ideal) ((c : Thread nD τ).loc main_v15) :=
  fun i => pooled (wOf m c) (m ((c : Thread nD τ).loc main_arg1)) (i 0) (i 1)

/-- A per-row value broadcast over the row's positions. -/
theorem bcast_positions_apply (v : FVec Ideal S32x1x1 .f32) (b : Fin 32) (l : Fin 2048) (u : Fin 1) :
    broadcastInDim S32x2048x1 ![0, 1, 2] bcast_S32x1x1_S32x2048x1_0_1_2 v (ix3 b l u) = v (ix3 b (0 : Fin 1) (0 : Fin 1)) :=
  broadcastInDim_apply _ bcast_S32x1x1_S32x2048x1_0_1_2 v (ix3 b l u) (ix3 b (0 : Fin 1) (0 : Fin 1)) (fun a => match a with
    | ⟨0, _⟩ => by show b.val = if (32 : Nat) = 1 then 0 else b.val; rw [if_neg (by decide)]
    | ⟨1, _⟩ => by show 0 = if (1 : Nat) = 1 then 0 else l.val; rw [if_pos rfl]
    | ⟨2, _⟩ => by show 0 = if (1 : Nat) = 1 then 0 else u.val; rw [if_pos rfl])

/-- A per-row value broadcast over the row's features. -/
theorem bcast_features_apply (v : FVec Ideal S32x1 .f32) (b : Fin 32) (f : Fin 512) :
    broadcastInDim S32x512 ![0, 1] bcast_S32x1_S32x512_0_1 v (ix2 b f) = v (ix2 b (0 : Fin 1)) :=
  broadcastInDim_apply _ bcast_S32x1_S32x512_0_1 v (ix2 b f) (ix2 b (0 : Fin 1)) (fun a => match a with
    | ⟨0, _⟩ => by show b.val = if (32 : Nat) = 1 then 0 else b.val; rw [if_neg (by decide)]
    | ⟨1, _⟩ => by show 0 = if (1 : Nat) = 1 then 0 else f.val; rw [if_pos rfl])

/-- The normaliser array: each row's sum of weights plus `ε`. -/
def denomArr (c : Dev nD) : FVec Ideal S32x1x1 .f32 :=
  addf (sumArr m c) (broadcastInDim S32x1x1 ![] bcast_S_S32x1x1 (constant (F := Ideal) S_ .f32 0x3727C5AC#32))

theorem denomArr_apply (c : Dev nD) (b : Fin 32) :
    denomArr m c (ix3 b (0 : Fin 1) (0 : Fin 1)) = denom (wOf m c) b := rfl

theorem arr7 (c : Dev nD) :
    Pipeline.withArrays (cfgs 0).spec c (V0 m c) (fun w => (dats m 0 c).arrAt w (cfgs 0).N) (Proc.devRef .tc main_v7_0) = weightsArr m c :=
  (Pipeline.withArrays_arr spec0 launch0.win.arr_inj c _ _ 7).trans (final7 m c)

theorem arr8 (c : Dev nD) :
    Pipeline.withArrays (cfgs 0).spec c (V0 m c) (fun w => (dats m 0 c).arrAt w (cfgs 0).N) (Proc.devRef .tc main_v7_1) = sumArr m c :=
  (Pipeline.withArrays_arr spec0 launch0.win.arr_inj c _ _ 8).trans (final8 m c)

theorem arr9 (c : Dev nD) :
    Pipeline.withArrays (cfgs 0).spec c (V0 m c) (fun w => (dats m 0 c).arrAt w (cfgs 0).N) (Proc.devRef .tc main_v7_2) = poolArr m c :=
  (Pipeline.withArrays_arr spec0 launch0.win.arr_inj c _ _ 9).trans (final9 m c)

/-- The weights divided by the normaliser of their row. -/
theorem tail_weights (c : Dev nD) :
    Pipeline.afterTail₀ cfgs (dats m) 0 (V0 m) [hostOps1] c main_v11 = weightsRes m c := by
  unfold Pipeline.afterTail₀
  show StableHlo.after hostOps1 _ (Proc.devRef .tc main_v11) = _
  after_results
  rw [arr7, arr8]
  show Host.divf (F := Ideal) (weightsArr m c) (broadcastInDim S32x2048x1 ![0, 1, 2] bcast_S32x1x1_S32x2048x1_0_1_2 (denomArr m c)) = _
  funext i
  obtain ⟨b, l, u, rfl⟩ : ∃ (b : Fin 32) (l : Fin 2048) (u : Fin 1), i = ix3 b l u := ⟨i 0, i 1, i 2, eq_ix3 i⟩
  show Ideal.div (weightsArr m c (ix3 b l u)) (broadcastInDim S32x2048x1 ![0, 1, 2] bcast_S32x1x1_S32x2048x1_0_1_2 (denomArr m c) (ix3 b l u)) = _
  rw [bcast_positions_apply, denomArr_apply]
  rfl

/-- The pooled context divided by the normaliser of its row. -/
theorem tail_pooled (c : Dev nD) :
    Pipeline.afterTail₀ cfgs (dats m) 0 (V0 m) [hostOps1] c main_v15 = pooledRes m c := by
  unfold Pipeline.afterTail₀
  show StableHlo.after hostOps1 _ (Proc.devRef .tc main_v15) = _
  after_results
  rw [arr9, arr8]
  show Host.divf (F := Ideal) (shapeCast S32x512 (poolArr m c) shapeCasts_S32x1x512_S32x512)
    (broadcastInDim S32x512 ![0, 1] bcast_S32x1_S32x512_0_1 (shapeCast S32x1 (denomArr m c) shapeCasts_S32x1x1_S32x1)) = _
  funext i
  obtain ⟨b, f, rfl⟩ : ∃ (b : Fin 32) (f : Fin 512), i = ix2 b f := ⟨i 0, i 1, eq_ix2 i⟩
  show Ideal.div (shapeCast S32x512 (poolArr m c) shapeCasts_S32x1x512_S32x512 (ix2 b f))
    (broadcastInDim S32x512 ![0, 1] bcast_S32x1_S32x512_0_1 (shapeCast S32x1 (denomArr m c) shapeCasts_S32x1x1_S32x1) (ix2 b f)) = _
  rw [bcast_features_apply,
    shapeCast_apply (s := S32x1x512) (t := S32x512) (poolArr m c) shapeCasts_S32x1x512_S32x512 (ix2 b f) (ix3 b (0 : Fin 1) f) (by
      rw [Shape.rowMajor_val_three, Shape.rowMajor_val_two]
      show (b.val * 1 + 0) * 512 + f.val = b.val * 512 + f.val
      omega),
    shapeCast_apply (s := S32x1x1) (t := S32x1) (denomArr m c) shapeCasts_S32x1x1_S32x1 (ix2 b (0 : Fin 1)) (ix3 b (0 : Fin 1) (0 : Fin 1)) (by
      rw [Shape.rowMajor_val_three, Shape.rowMajor_val_two]
      show (b.val * 1 + 0) * 1 + 0 = b.val * 1 + 0
      omega),
    denomArr_apply]
  rfl

/-! ## The run, read -/

/-- Every weakly fair execution of the kernel's program ends with its two results at the specification's pooled
    context and normalised weights of the launch arrays, and the arguments unchanged. -/
theorem run : θ_run defs (onTc (τ := τ) (main (F := Ideal))) ⟨m, fun _ => 0, ρ⟩ fun r => ∀ c : Dev nD,
      r.2.mem ((c.tc : Thread nD τ).loc main_v15) = pooledRes m c
      ∧ r.2.mem ((c.tc : Thread nD τ).loc main_v11) = weightsRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      (((h c).2 main_v15 (Pipeline.mem_restRefs_of main_v15 (by decide) (by decide))).trans (tail_pooled m c)),
      (((h c).2 main_v11 (Pipeline.mem_restRefs_of main_v11 (by decide) (by decide))).trans (tail_weights m c)),
      (((h c).2 main_arg0 (Pipeline.mem_restRefs_of main_arg0 (by decide) (by decide))).trans (W_main_arg0 m (dats m) c)),
      ((h c).1 0).trans ((((dats m) 0 c).arrAt_in 0 rfl _).trans ((A_eq m c 0).trans (V_main_arg1 m c))),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 5).trans ((((dats m) 0 c).arrAt_in 5 rfl _).trans ((A_eq m c 5).trans (V_main_arg6 m c))),
      (((h c).2 main_arg7 (Pipeline.mem_restRefs_of main_arg7 (by decide) (by decide))).trans (W_main_arg7 m (dats m) c))⟩) (run_main m ρ)

end Cert.KernelIdeal.KernelValue

end
-- ==== Proof.Domain.lean ====
/-
  What the precondition says of the arrays the normaliser depends on.

  The precondition is a conjunction of "every entry satisfies …" tests, one per input.  Three of them are
  used: every entry of the output weight and of the output bias has a finite absolute value, so it is a real;
  and every entry of the mask equals 0 or equals 1.
-/
import proofs.«169427_j37151467110735_1_alg».proof.Pre_finite_inputs
import Idealize.ShloMosaic.Lib.ReduceAll
import Idealize.ShloMosaic.Lib.ValueIdx
import Idealize.ShloMosaic.PureOps.Ideal.Laws

noncomputable section

namespace Cert.Pre_finite_inputs.Domain

open Cert.Pre_finite_inputs Idealize.ShloMosaic Idealize.ShloMosaic.ValueIdx

instance : Subsingleton S_.Idx := ⟨fun a b => funext fun d => d.elim0⟩

/-- The word of `+inf` denotes `⊤`. -/
theorem ofBits_inf : Ideal.ofBits .f32 0x7F800000#32 = ⊤ := by simp [Ideal.ofBits, Ideal.ieee]

/-- The word of `1.0` denotes `1`. -/
theorem ofBits_one : Ideal.ofBits .f32 0x3F800000#32 = 1 := by
  simp [Ideal.ofBits, Ideal.ieee, -EReal.coe_mul]
  norm_num

/-- An equality test that answered 1 compared equal values. -/
theorem eq_of_cmp_oeq {x y : EReal} (h : Ideal.cmp .oeq x y = 1#1) : x = y := by
  by_contra hne
  simp [Ideal.cmp, hne] at h

/-- A less-than test that answered 1 compared a smaller with a larger value. -/
theorem lt_of_cmp_olt {x y : EReal} (h : Ideal.cmp .olt x y = 1#1) : x < y := by
  by_contra hne
  simp [Ideal.cmp, hne] at h

/-- An extended real whose absolute value is below `⊤` is a real. -/
theorem real_of_abs_lt_top (a : EReal) (h : max a (-a) < ⊤) : ∃ r : ℝ, a = (r : EReal) := by
  induction a using EReal.rec with
  | bot => simp at h
  | coe r => exact ⟨r, rfl⟩
  | top => simp at h

variable [Facts]
open Facts

/-- Under the precondition the output weight and bias are real and the mask is 0/1. -/
theorem of_pre (x0 : FVec Ideal S32x512 .f32) (x1 : FVec Ideal S32x2048x512 .f32) (x2 : FVec Ideal S32x2048x1 .f32)
    (x3 x4 : FVec Ideal S1024x512 .f32) (x5 : FVec Ideal S1024 .f32) (x6 : FVec Ideal S1x1024 .f32) (x7 : FVec Ideal S1 .f32)
    (h : fn (F := Ideal) x0 x1 x2 x3 x4 x5 x6 x7 = fun _ => 1#1) :
    (∀ i, ∃ r : ℝ, x6 i = (r : EReal)) ∧ (∀ i, ∃ r : ℝ, x7 i = (r : EReal)) ∧ (∀ i, x2 i = 0 ∨ x2 i = 1) := by
  have h0 := congrFun h ix0
  dsimp only [fn, fn_part1, fn_part2] at h0
  obtain ⟨h38, h44⟩ := IntOp.andi_eq_one.1 h0
  obtain ⟨h33, h37⟩ := IntOp.andi_eq_one.1 h38
  obtain ⟨h28, h32⟩ := IntOp.andi_eq_one.1 h33
  refine ⟨fun i => ?_, fun i => ?_, fun i => ?_⟩
  · have e := Host.reduce_andi_all _ _ _ _ ix0 h32 i
    have e' : Ideal.cmp .olt (max (x6 i) (-(x6 i))) (Ideal.ofBits .f32 0x7F800000#32) = 1#1 := e
    rw [ofBits_inf] at e'
    exact real_of_abs_lt_top _ (lt_of_cmp_olt e')
  · have e := Host.reduce_andi_all _ _ _ _ ix0 h37 i
    have e' : Ideal.cmp .olt (max (x7 i) (-(x7 i))) (Ideal.ofBits .f32 0x7F800000#32) = 1#1 := e
    rw [ofBits_inf] at e'
    exact real_of_abs_lt_top _ (lt_of_cmp_olt e')
  · have e := Host.reduce_andi_all _ _ _ _ ix0 h44 i
    have e' : IntOp.ori (Ideal.cmp .oeq (x2 i) (Ideal.ofBits .f32 0x00000000#32))
        (Ideal.cmp .oeq (x2 i) (Ideal.ofBits .f32 0x3F800000#32)) = 1#1 := e
    rcases IntOp.ori_eq_one.1 e' with h1 | h1
    · exact Or.inl ((eq_of_cmp_oeq h1).trans Ideal.ofBits_zero_f32)
    · exact Or.inr ((eq_of_cmp_oeq h1).trans ofBits_one)

end Cert.Pre_finite_inputs.Domain

end
-- ==== Proof.lean ====
/-
  Additive attention with an unnormalised masked softmax: the tiled kernel against its plain reference, over
  the extended reals.

  Both programs compute, for a batch row `b` and a position `l`, the unnormalised weight
  `w b l = mask(b,l) · exp (Σ_h tanh ((q Wqᵀ)(b,h) + ((x Wcᵀ)(b,l,h) + bc h)) · Wo(0,h) + bo)`, the normaliser
  `d b = Σ_l w b l + ε`, and return the normalised weights `w b l / d b` and a pooled context.  The kernel
  visits each row in four tiles of 512 positions, keeping the running sum of the weights and the running
  weighted sum of the context rows, and divides the pooled sum by `d b` at the end:
  `(Σ_l w b l · x(b,l,c)) / d b`.  The reference normalises first and pools after: `Σ_l (w b l / d b) · x(b,l,c)`.

  The weights agree term by term (the tiles of a row together are the row; a sum may be taken tile by tile).
  The pooled contexts agree when `d b` is a positive real: the division is then a product with a nonnegative
  real, which distributes over a sum of extended reals.  With the mask taken in {0, 1}, and the output weight
  and bias finite, every `w b l` is a nonnegative real (the hidden activations are reals whatever their
  arguments), so `d b ≥ ε > 0`.  Without the mask condition `d b` can vanish and the two poolings differ.

  The frames are the generated ones; the reference's frame is its run with the results dropped.  The ideal
  pass rewrote nothing, so the kernel's idealization is its own text read over the extended reals.
-/
import proofs.«169427_j37151467110735_1_alg».proof.Defs
import proofs.«169427_j37151467110735_1_alg».proof.Proof.Gen.Kernel
import proofs.«169427_j37151467110735_1_alg».proof.Proof.Gen.Kernel.Frame
import proofs.«169427_j37151467110735_1_alg».proof.Proof.Gen.KernelIdeal
import proofs.«169427_j37151467110735_1_alg».proof.Proof.Gen.KernelIdeal.Frame
import proofs.«169427_j37151467110735_1_alg».proof.Proof.Gen.ReferenceIdeal
import proofs.«169427_j37151467110735_1_alg».proof.Proof.Gen.ReferenceIdeal.Run
import proofs.«169427_j37151467110735_1_alg».proof.Proof.Gen.ReferenceIdeal.Read
import proofs.«169427_j37151467110735_1_alg».proof.Proof.Gen.Pre_finite_inputs
import proofs.«169427_j37151467110735_1_alg».proof.Proof.Spec
import proofs.«169427_j37151467110735_1_alg».proof.Proof.RefValue
import proofs.«169427_j37151467110735_1_alg».proof.Proof.KernelValue
import proofs.«169427_j37151467110735_1_alg».proof.Proof.Domain
import Idealize.ShloMosaic.Adequacy
import Idealize.ShloMosaic.Init

noncomputable section

namespace Cert.Proof

open Idealize.ShloMosaic Idealize.ShloMosaic.ValueIdx Idealize.SL.Sem Cert.Attention

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The two programs, from memories agreeing on the arguments, end with equal results: the normalised weights
    term by term, the pooled context by moving the division by the positive real normaliser across the sum. -/
theorem algebraic : Cert.algebraic_KernelIdeal_ReferenceIdeal := by
  intro m ρ m' ρ' hpre hagree
  refine ⟨fun c => Cert.KernelIdeal.KernelValue.pooledRes m c, fun c => Cert.KernelIdeal.KernelValue.weightsRes m c,
    Cert.KernelIdeal.KernelValue.run m ρ, ?_⟩
  refine (θ_run Cert.ReferenceIdeal.defs _ _).mono (fun _ h c => ?_) (Cert.ReferenceIdeal.Value.run (F := Ideal) m' ρ')
  obtain ⟨h23, h21, hk⟩ := h c
  obtain ⟨g0, g1, g2, g3, g4, g5, g6, g7⟩ := hagree c
  obtain ⟨hWo, hbo, hmk⟩ := Cert.Pre_finite_inputs.Domain.of_pre _ _ _ _ _ _ _ _ (hpre c)
  refine ⟨h23.trans ?_, h21.trans ?_, hk⟩
  · rw [g0, g1, g2, g3, g4, g5, g6, g7]
    refine (Cert.ReferenceIdeal.Read.val_main_v23_eq _ _ _ _ _ _ _ _).trans ?_
    funext i
    obtain ⟨b, f, rfl⟩ : ∃ (b : Fin 32) (f : Fin 512), i = ix2 b f := ⟨i 0, i 1, eq_ix2 i⟩
    rw [Cert.ReferenceIdeal.RefValue.pooled_eq]
    obtain ⟨d, hd, hden⟩ := denom_pos _ _ _ _ _ _ _ _ (fun h => hWo (ix2 (0 : Fin 1) h)) (hbo (ix1 (0 : Fin 1)))
      (fun b l => hmk (ix3 b l (0 : Fin 1))) b
    exact pooledNormFirst_eq _ _ b f hd hden
  · rw [g0, g1, g2, g3, g4, g5, g6, g7]
    refine (Cert.ReferenceIdeal.Read.val_main_v21_eq _ _ _ _ _ _ _ _).trans ?_
    funext i
    obtain ⟨b, l, u, rfl⟩ : ∃ (b : Fin 32) (l : Fin 2048) (u : Fin 1), i = ix3 b l u := ⟨i 0, i 1, i 2, eq_ix3 i⟩
    obtain rfl : u = 0 := Subsingleton.elim _ _
    rw [Cert.ReferenceIdeal.RefValue.weights_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
